-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S512x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1 : Shape := ⟨1, ![1]⟩
abbrev S_ : Shape := ⟨0, ![]⟩

abbrev nBuf : Space → Nat
  | .hbm => 8
  | .vmem => 11
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S1x8192, .f32⟩
  | .hbm, ⟨4, _⟩ => ⟨S8192x1, .f32⟩
  | .hbm, ⟨5, _⟩ => ⟨S1x8192, .f32⟩
  | .hbm, ⟨6, _⟩ => ⟨S1x1, .f32⟩
  | .hbm, ⟨7, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x512, .f32⟩
  | .local _ .vmem, ⟨3, _⟩ => ⟨S1x512, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [BitOps F]

abbrev grid0 : Pipeline.Grid := ⟨2, ![16, 16], ![false, false]⟩

def k0_cond2 (i : grid0.Coords) : BitVec 1 :=
  let arg0 : BitVec 32 := BitVec.ofNat 32 (i 0).val
  let c15_i32 : BitVec 32 := 15#32
  let v80 : BitVec 1 := Scalar.cmpi .eq arg0 c15_i32
  let arg1 : BitVec 32 := BitVec.ofNat 32 (i 1).val
  let c15_i32_27 : BitVec 32 := 15#32
  let v81 : BitVec 1 := Scalar.cmpi .eq arg1 c15_i32_27
  let v82 : BitVec 1 := Scalar.andi v80 v81
  let v83 : BitVec 32 := Scalar.extui v82
  let c0_i32_28 : BitVec 32 := 0#32
  let v84 : BitVec 1 := Scalar.cmpi .ne v83 c0_i32_28
  v84

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  natLt_1_32 : 1 < 32
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x8192.size a
  hwx0_1 : ∀ i : grid0.Coords, EltTy.bits .f32 = 32 ∨ (Rect.block (s := S1x8192) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S1x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192, .i32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S8192x8192, .i1⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .i1⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S_, .f32⟩
  | .hbm, ⟨47, _⟩ => ⟨S8192x8192, .i32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v23 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_c : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_call2_v0 : Ref sig .tc := ⟨.hbm, 55, rfl⟩
abbrev main_v31 : Ref sig .tc := ⟨.hbm, 56, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel
  natLt_1_32 : 1 < 32

variable [Facts₀]

class Facts : Prop extends Facts₀ where

variable [Facts]
-- ==== Proof.Pieces.lean ====
/-
  What each control case of the kernel body leaves in the two carried accumulators and in the output block, as
  the body's arithmetic of the four input blocks and of what the accumulators held before.

  The first grid point zeroes both accumulators and then adds the tile's partial sums; every later point adds its
  tile's partial sums to what the point before left; the last point also writes the guarded quotient of the two
  updated accumulators into the output block.
-/
import proofs.«156637_j40699110097504_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## A later point that is not the last: accumulate -/

theorem sumB (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 : Vec F S512x1 .f32) (x1 : Vec F S1x512 .f32) (x2 : Vec F S512x1 .f32) (x3 : Vec F S1x512 .f32) (xs0 xs1 : Vec F S1x1 .f32) :
    sout0_B_0 c i arg2 harg2 arg3 harg3 arg4 harg4 arg5 harg5 arg6 harg6 arg7 harg7 arg8 harg8 hc0 hc1 x0 x1 x2 x3 xs0 xs1 = k0_pay9 (k0_pay4 x0 x1) (k0_pay6 i x2 x3) (k0_pay7 x2 x3) (k0_pay8 (F := F)) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg7.read_unread, harg8.read_unread,
    View.ld_unit_zero (S := S512x1) hz, View.ld_unit_zero (S := S1x512) hz, View.ld_unit_zero (S := S1x1) hz]

theorem cntB (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 : Vec F S512x1 .f32) (x1 : Vec F S1x512 .f32) (x2 : Vec F S512x1 .f32) (x3 : Vec F S1x512 .f32) (xs0 xs1 : Vec F S1x1 .f32) :
    sout0_B_1 c i arg2 harg2 arg3 harg3 arg4 harg4 arg5 harg5 arg6 harg6 arg7 harg7 arg8 harg8 hc0 hc1 x0 x1 x2 x3 xs0 xs1 = k0_pay10 (k0_pay6 i x2 x3) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg7.read_unread, harg8.read_unread,
    View.ld_unit_zero (S := S512x1) hz, View.ld_unit_zero (S := S1x512) hz, View.ld_unit_zero (S := S1x1) hz]

/-! ## The last point: accumulate, then write the quotient -/

theorem sumC (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S512x1 .f32) (x1 : Vec F S1x512 .f32) (x2 : Vec F S512x1 .f32) (x3 : Vec F S1x512 .f32) (xs0 xs1 : Vec F S1x1 .f32) :
    sout0_C_0 c i arg2 harg2 arg3 harg3 arg4 harg4 arg5 harg5 arg6 harg6 arg7 harg7 arg8 harg8 hc0 hc1 x0 x1 x2 x3 xs0 xs1 = k0_pay9 (k0_pay4 x0 x1) (k0_pay6 i x2 x3) (k0_pay7 x2 x3) (k0_pay8 (F := F)) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg7.read_unread, harg8.read_unread,
    View.ld_unit_zero (S := S512x1) hz, View.ld_unit_zero (S := S1x512) hz, View.ld_unit_zero (S := S1x1) hz]

theorem cntC (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S512x1 .f32) (x1 : Vec F S1x512 .f32) (x2 : Vec F S512x1 .f32) (x3 : Vec F S1x512 .f32) (xs0 xs1 : Vec F S1x1 .f32) :
    sout0_C_1 c i arg2 harg2 arg3 harg3 arg4 harg4 arg5 harg5 arg6 harg6 arg7 harg7 arg8 harg8 hc0 hc1 x0 x1 x2 x3 xs0 xs1 = k0_pay10 (k0_pay6 i x2 x3) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg7.read_unread, harg8.read_unread,
    View.ld_unit_zero (S := S512x1) hz, View.ld_unit_zero (S := S1x512) hz, View.ld_unit_zero (S := S1x1) hz]

theorem outC (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S512x1 .f32) (x1 : Vec F S1x512 .f32) (x2 : Vec F S512x1 .f32) (x3 : Vec F S1x512 .f32) (xs0 xs1 : Vec F S1x1 .f32) :
    out0_C_4 c i arg2 harg2 arg3 harg3 arg4 harg4 arg5 harg5 arg6 harg6 arg7 harg7 arg8 harg8 hc0 hc1 x0 x1 x2 x3 xs0 xs1
      = k0_pay1 (k0_pay10 (k0_pay6 i x2 x3) xs1) (k0_pay9 (k0_pay4 x0 x1) (k0_pay6 i x2 x3) (k0_pay7 x2 x3) (k0_pay8 (F := F)) xs0) (k0_pay10 (k0_pay6 i x2 x3) xs1) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readCov_unit_zero (S := S1x1) _ hz, View.readAt_eq_ld, harg2.read_unread, harg3.read_unread, harg4.read_unread, harg5.read_unread, harg7.read_unread, harg8.read_unread,
    View.ld_unit_zero (S := S512x1) hz, View.ld_unit_zero (S := S1x512) hz, View.ld_unit_zero (S := S1x1) hz]

/-! ## The first point: zero, then accumulate -/

theorem sumA (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 : Vec F S512x1 .f32) (x1 : Vec F S1x512 .f32) (x2 : Vec F S512x1 .f32) (x3 : Vec F S1x512 .f32) :
    sout0_A_0 c i arg2 harg2 arg3 harg3 arg4 harg4 arg5 harg5 arg6 harg6 arg7 harg7 arg8 harg8 hc0 hc1 x0 x1 x2 x3 = k0_pay9 (k0_pay4 x0 x1) (k0_pay6 i x2 x3) (k0_pay7 x2 x3) (k0_pay8 (F := F)) (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread,
    View.ld_unit_zero (S := S512x1) hz, View.ld_unit_zero (S := S1x512) hz]

theorem cntA (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 : Vec F S512x1 .f32) (x1 : Vec F S1x512 .f32) (x2 : Vec F S512x1 .f32) (x3 : Vec F S1x512 .f32) :
    sout0_A_1 c i arg2 harg2 arg3 harg3 arg4 harg4 arg5 harg5 arg6 harg6 arg7 harg7 arg8 harg8 hc0 hc1 x0 x1 x2 x3 = k0_pay10 (k0_pay6 i x2 x3) (k0_pay3 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread,
    View.ld_unit_zero (S := S512x1) hz, View.ld_unit_zero (S := S1x512) hz]

end Cert.KernelIdeal.Pieces

end
-- ==== Proof.Carried.lean ====
/-
  The two carried accumulators and the output block after each grid point, in terms of the point before.

  After the first point the accumulators hold the first tile's partial sums added to zero; after any later point,
  the tile's partial sums added to what the point before left; and after the last point the output block holds the
  guarded quotient of the two accumulators as just updated.
-/
import proofs.«156637_j40699110097504_2_alg».proof.Proof.Pieces

set_option maxRecDepth 16384

noncomputable section

open Idealize.ShloMosaic Idealize.ShloMosaic.TcCoe Idealize.SL.Sem
open Idealize.ShloMosaic.Pipeline (Dat)

namespace Cert.KernelIdeal.Carried

open Cert.KernelIdeal Cert.KernelIdeal.Gen Cert.KernelIdeal.Pieces

variable {F : FTy → Type} [FloatOps F]
variable (m : (ℓ : Loc nD τ sig) → Buf (Elt F) ℓ)

/-- The loss accumulator `acc` after the tile of point `t` is added. -/
def addSum (c : Dev nD) (t : Fin cfg0.N) (acc : Vec F S1x1 .f32) : Vec F S1x1 .f32 :=
  k0_pay9 (k0_pay4 (iblk m c 0 t : Vec F S512x1 .f32) (iblk m c 1 t : Vec F S1x512 .f32))
    (k0_pay6 (grid0.coords t) (iblk m c 2 t : Vec F S512x1 .f32) (iblk m c 3 t : Vec F S1x512 .f32))
    (k0_pay7 (iblk m c 2 t : Vec F S512x1 .f32) (iblk m c 3 t : Vec F S1x512 .f32)) (k0_pay8 (F := F)) acc

/-- The count accumulator `acc` after the tile of point `t` is added. -/
def addCnt (c : Dev nD) (t : Fin cfg0.N) (acc : Vec F S1x1 .f32) : Vec F S1x1 .f32 :=
  k0_pay10 (k0_pay6 (grid0.coords t) (iblk m c 2 t : Vec F S512x1 .f32) (iblk m c 3 t : Vec F S1x512 .f32)) acc

/-- After the first point: the first tile added to the zeroed accumulators. -/
theorem first (c : Dev nD) (t : Fin cfg0.N) (h0 : t.val % 256 = 0) (h1 : ¬t.val % 256 = 255) :
    (outsAt0 m c t.val t.isLt).2.1 = addSum m c t (k0_pay2 (F := F))
      ∧ (outsAt0 m c t.val t.isLt).2.2 = addCnt m c t (k0_pay3 (F := F)) := by
  rw [outsAt0_A m c t h0 h1]
  exact ⟨sumA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t),
    cntA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)⟩

/-- After any later point: the tile added to what the point before left. -/
theorem later (c : Dev nD) (t : Fin cfg0.N) (h0 : ¬t.val % 256 = 0) :
    (outsAt0 m c t.val t.isLt).2.1 = addSum m c t (outsAt0 m c (t.val - 1) (Nat.lt_of_le_of_lt (Nat.sub_le _ _) t.isLt)).2.1
      ∧ (outsAt0 m c t.val t.isLt).2.2 = addCnt m c t (outsAt0 m c (t.val - 1) (Nat.lt_of_le_of_lt (Nat.sub_le _ _) t.isLt)).2.2 := by
  by_cases h1 : t.val % 256 = 255
  · rw [outsAt0_C m c t h0 h1]
    exact ⟨sumC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      cntC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    exact ⟨sumB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      cntB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩

/-- After the last point the output block holds the guarded quotient of the updated accumulators. -/
theorem last (c : Dev nD) (t : Fin cfg0.N) (h0 : ¬t.val % 256 = 0) (h1 : t.val % 256 = 255) :
    (outsAt0 m c t.val t.isLt).1
      = k0_pay1 (addCnt m c t (outsAt0 m c (t.val - 1) (Nat.lt_of_le_of_lt (Nat.sub_le _ _) t.isLt)).2.2) (addSum m c t (outsAt0 m c (t.val - 1) (Nat.lt_of_le_of_lt (Nat.sub_le _ _) t.isLt)).2.1) (addCnt m c t (outsAt0 m c (t.val - 1) (Nat.lt_of_le_of_lt (Nat.sub_le _ _) t.isLt)).2.2) := by
  rw [outsAt0_C m c t h0 h1]
  exact outC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Carried

end
-- ==== Proof.Blocks.lean ====
/-
  The four input blocks at a grid point, entry by entry, as entries of the two argument vectors.

  The region's four operands are reshapes of the arguments: the scores as a column `[8192, 1]` and as a row
  `[1, 8192]`, the labels likewise. At grid point `t` (tile row `t / 16`, tile column `t % 16`) the column windows hold
  rows `512·(t / 16) + a` and the row windows hold columns `512·(t % 16) + b`.
-/
import proofs.«156637_j40699110097504_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- A vector `[n]` cast to a column `[n, 1]` reads, at `(i, u)`, the vector at `i`. -/
theorem shapeCast_a_a1_apply {α : Type} {n : ℕ} (x : (⟨1, ![n]⟩ : Shape).Idx → α) (h : (⟨1, ![n]⟩ : Shape).ShapeCasts ⟨2, ![n, 1]⟩)
    (i : Fin n) (u : Fin 1) : shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Tile row `t / 16` and tile column `t % 16` stay inside the 16 × 16 grid of tiles. -/
theorem row_lt (t : Fin cfg0.N) (a : Fin 512) : 512 * (t.val / 16) + a.val < 8192 := by
  have hN : t.val < 256 := lt_of_lt_of_eq t.isLt (show cfg0.N = 256 from N_0)
  have := a.isLt
  omega

theorem col_lt (t : Fin cfg0.N) (a : Fin 512) : 512 * (t.val % 16) + a.val < 8192 := by
  have := a.isLt
  omega

/-- The grid point's coordinates: tile row and tile column. -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The region finds operand 0 at the scores cast to a column. -/
theorem V_v0 (c : Dev nD) : (V m c main_v0 : S8192x1.Idx → Elt F .f32)
    = shapeCast S8192x1 (m ((c : Thread nD τ).loc main_arg0)) shapeCasts_S8192_S8192x1 := by
  show StableHlo.after hostOps0 (fun b => m (c, b)) (Proc.devRef .tc main_v0) = _
  after_results
  rfl

/-- Window 0's block index at point `t`, decided over the grid. -/
theorem idx0 : ∀ t : Fin cfg0.N, win0_0.index t 0 = t.val / 16 ∧ win0_0.index t 1 = 0 :=
  (by decide +kernel : ∀ t : Fin grid0.N, win0_0.index t 0 = t.val / 16 ∧ win0_0.index t 1 = 0)

/-- Entry `a` of window 0's block at point `t` is entry `512·(t.val / 16) + a` of the scores. -/
theorem iblk0_apply (c : Dev nD) (t : Fin cfg0.N) (a : Fin 512) :
    (iblk m c 0 t : Vec F S512x1 .f32) (ix2 a 0)
      = m ((c : Thread nD τ).loc main_arg0) (ix1 ⟨512 * (t.val / 16) + a.val, row_lt t a⟩) := by
  unfold iblk
  rw [View.read_apply]
  show V m c main_v0 _ = _
  rw [V_v0]
  refine shapeCast_apply _ _ _ _ ?_
  rw [Shape.rowMajor_val_two]
  show ((⟨1, ![8192]⟩ : Shape).rowMajor (ix1 ⟨512 * (t.val / 16) + a.val, row_lt t a⟩)).val = _
  rw [Shape.rowMajor_val_one]
  show 512 * (t.val / 16) + a.val = (win0_0.index t 0 * 512 + 1 * a.val) * 1 + (win0_0.index t 1 * 1 + 1 * 0)
  rw [(idx0 t).1, (idx0 t).2]
  omega

/-- The region finds operand 1 at the scores cast to a row. -/
theorem V_v1 (c : Dev nD) : (V m c main_v1 : S1x8192.Idx → Elt F .f32)
    = shapeCast S1x8192 (m ((c : Thread nD τ).loc main_arg0)) shapeCasts_S8192_S1x8192 := by
  show StableHlo.after hostOps0 (fun b => m (c, b)) (Proc.devRef .tc main_v1) = _
  after_results
  rfl

/-- Window 1's block index at point `t`, decided over the grid. -/
theorem idx1 : ∀ t : Fin cfg0.N, win0_1.index t 0 = 0 ∧ win0_1.index t 1 = t.val % 16 :=
  (by decide +kernel : ∀ t : Fin grid0.N, win0_1.index t 0 = 0 ∧ win0_1.index t 1 = t.val % 16)

/-- Entry `a` of window 1's block at point `t` is entry `512·(t.val % 16) + a` of the scores. -/
theorem iblk1_apply (c : Dev nD) (t : Fin cfg0.N) (a : Fin 512) :
    (iblk m c 1 t : Vec F S1x512 .f32) (ix2 0 a)
      = m ((c : Thread nD τ).loc main_arg0) (ix1 ⟨512 * (t.val % 16) + a.val, col_lt t a⟩) := by
  unfold iblk
  rw [View.read_apply]
  show V m c main_v1 _ = _
  rw [V_v1]
  refine shapeCast_apply _ _ _ _ ?_
  rw [Shape.rowMajor_val_two]
  show ((⟨1, ![8192]⟩ : Shape).rowMajor (ix1 ⟨512 * (t.val % 16) + a.val, col_lt t a⟩)).val = _
  rw [Shape.rowMajor_val_one]
  show 512 * (t.val % 16) + a.val = (win0_1.index t 0 * 1 + 1 * 0) * 8192 + (win0_1.index t 1 * 512 + 1 * a.val)
  rw [(idx1 t).1, (idx1 t).2]
  omega

/-- The region finds operand 2 at the labels cast to a column. -/
theorem V_v2 (c : Dev nD) : (V m c main_v2 : S8192x1.Idx → Elt F .f32)
    = shapeCast S8192x1 (m ((c : Thread nD τ).loc main_arg1)) shapeCasts_S8192_S8192x1 := by
  show StableHlo.after hostOps0 (fun b => m (c, b)) (Proc.devRef .tc main_v2) = _
  after_results
  rfl

/-- Window 2's block index at point `t`, decided over the grid. -/
theorem idx2 : ∀ t : Fin cfg0.N, win0_2.index t 0 = t.val / 16 ∧ win0_2.index t 1 = 0 :=
  (by decide +kernel : ∀ t : Fin grid0.N, win0_2.index t 0 = t.val / 16 ∧ win0_2.index t 1 = 0)

/-- Entry `a` of window 2's block at point `t` is entry `512·(t.val / 16) + a` of the labels. -/
theorem iblk2_apply (c : Dev nD) (t : Fin cfg0.N) (a : Fin 512) :
    (iblk m c 2 t : Vec F S512x1 .f32) (ix2 a 0)
      = m ((c : Thread nD τ).loc main_arg1) (ix1 ⟨512 * (t.val / 16) + a.val, row_lt t a⟩) := by
  unfold iblk
  rw [View.read_apply]
  show V m c main_v2 _ = _
  rw [V_v2]
  refine shapeCast_apply _ _ _ _ ?_
  rw [Shape.rowMajor_val_two]
  show ((⟨1, ![8192]⟩ : Shape).rowMajor (ix1 ⟨512 * (t.val / 16) + a.val, row_lt t a⟩)).val = _
  rw [Shape.rowMajor_val_one]
  show 512 * (t.val / 16) + a.val = (win0_2.index t 0 * 512 + 1 * a.val) * 1 + (win0_2.index t 1 * 1 + 1 * 0)
  rw [(idx2 t).1, (idx2 t).2]
  omega

/-- The region finds operand 3 at the labels cast to a row. -/
theorem V_v3 (c : Dev nD) : (V m c main_v3 : S1x8192.Idx → Elt F .f32)
    = shapeCast S1x8192 (m ((c : Thread nD τ).loc main_arg1)) shapeCasts_S8192_S1x8192 := by
  show StableHlo.after hostOps0 (fun b => m (c, b)) (Proc.devRef .tc main_v3) = _
  after_results
  rfl

/-- Window 3's block index at point `t`, decided over the grid. -/
theorem idx3 : ∀ t : Fin cfg0.N, win0_3.index t 0 = 0 ∧ win0_3.index t 1 = t.val % 16 :=
  (by decide +kernel : ∀ t : Fin grid0.N, win0_3.index t 0 = 0 ∧ win0_3.index t 1 = t.val % 16)

/-- Entry `a` of window 3's block at point `t` is entry `512·(t.val % 16) + a` of the labels. -/
theorem iblk3_apply (c : Dev nD) (t : Fin cfg0.N) (a : Fin 512) :
    (iblk m c 3 t : Vec F S1x512 .f32) (ix2 0 a)
      = m ((c : Thread nD τ).loc main_arg1) (ix1 ⟨512 * (t.val % 16) + a.val, col_lt t a⟩) := by
  unfold iblk
  rw [View.read_apply]
  show V m c main_v3 _ = _
  rw [V_v3]
  refine shapeCast_apply _ _ _ _ ?_
  rw [Shape.rowMajor_val_two]
  show ((⟨1, ![8192]⟩ : Shape).rowMajor (ix1 ⟨512 * (t.val % 16) + a.val, col_lt t a⟩)).val = _
  rw [Shape.rowMajor_val_one]
  show 512 * (t.val % 16) + a.val = (win0_3.index t 0 * 1 + 1 * 0) * 8192 + (win0_3.index t 1 * 512 + 1 * a.val)
  rw [(idx3 t).1, (idx3 t).2]
  omega

end Cert.KernelIdeal.Blocks

end
-- ==== Proof.PairSpec.lean ====
/-
  The pairwise ranking loss as one function of the two argument vectors, on the extended reals.

  For score vectors `p` and labels `t` of length 8192, a pair `(r, c)` counts when `r < c` and `t r - t c ≠ 0`;
  a counting pair contributes `softplus (-(sign (t r - t c)) · (p r - p c))`, and the loss is the sum of the
  contributions divided by the number of counting pairs (zero when no pair counts). The same sum cut into
  16 × 16 tiles of 512 × 512 pairs is stated beside it (`tileSum`, `tileCount`).
-/
import Idealize.ShloMosaic.PureOps.Ideal
import Idealize.ShloMosaic.Lib.ValueIdx

noncomputable section

namespace Cert.PairSpec

open Idealize.ShloMosaic
open scoped Classical

/-- `log (1 + eˣ)` in its overflow-free form `max x 0 + log1p (exp (-|x|))`. -/
def softplus (x : EReal) : EReal := max x 0 + Ideal.log1p (Ideal.exp (-(max x (-x))))

/-- One pair's contribution: `up` says the pair lies above the diagonal, `dp` and `dt` are the differences of
    the two scores and of the two labels. -/
def pairTerm (up : Prop) (dp dt : EReal) : EReal :=
  if up ∧ dt ≠ 0 then softplus ((-1) * Ideal.sign dt * dp) else 0

/-- One pair's contribution to the count: one when it counts, else zero. -/
def pairOne (up : Prop) (dt : EReal) : EReal := if up ∧ dt ≠ 0 then 1 else 0

/-- The one-bit mask of a counting pair. -/
def maskBit (up : Prop) (dt : EReal) : BitVec 1 := if up ∧ dt ≠ 0 then 1#1 else 0#1

theorem maskBit_pos {up : Prop} {dt : EReal} (h : up ∧ dt ≠ 0) : maskBit up dt = 1#1 := if_pos h

theorem maskBit_neg {up : Prop} {dt : EReal} (h : ¬(up ∧ dt ≠ 0)) : maskBit up dt = 0#1 := if_neg h

theorem maskBit_eq_one_iff {up : Prop} {dt : EReal} : maskBit up dt = 1#1 ↔ (up ∧ dt ≠ 0) := by
  unfold maskBit
  split
  · exact ⟨fun _ => ‹_›, fun _ => rfl⟩
  · exact ⟨fun h => absurd h (by decide), fun h => absurd h ‹_›⟩

/-- The quotient of the two totals, zero when nothing counts. -/
def ratio (s n : EReal) : EReal := if 0 < n then Ideal.div s n else 0

/-- Tile `(bi, bj)`: the pairs of rows `512·bi + a` and columns `512·bj + b`, from the tile's column and row pieces
    of the scores (`pc`, `pr`) and of the labels (`tc`, `tr`). -/
def tileSum (bi bj : ℕ) (pc pr tc tr : Fin 512 → EReal) : EReal :=
  ∑ a : Fin 512, ∑ b : Fin 512, pairTerm (512 * bi + a.val < 512 * bj + b.val) (pc a - pr b) (tc a - tr b)

def tileCount (bi bj : ℕ) (tc tr : Fin 512 → EReal) : EReal :=
  ∑ a : Fin 512, ∑ b : Fin 512, pairOne (512 * bi + a.val < 512 * bj + b.val) (tc a - tr b)

/-- The sum of all pairs' contributions, and their number. -/
def lossSum (p t : Fin 8192 → EReal) : EReal :=
  ∑ r : Fin 8192, ∑ c : Fin 8192, pairTerm (r.val < c.val) (p r - p c) (t r - t c)

def pairCount (t : Fin 8192 → EReal) : EReal :=
  ∑ r : Fin 8192, ∑ c : Fin 8192, pairOne (r.val < c.val) (t r - t c)

/-- The loss. -/
def loss (p t : Fin 8192 → EReal) : EReal := ratio (lossSum p t) (pairCount t)

theorem pairTerm_pos {up : Prop} {dp dt : EReal} (h : up ∧ dt ≠ 0) :
    pairTerm up dp dt = softplus ((-1) * Ideal.sign dt * dp) := if_pos h

theorem pairTerm_neg {up : Prop} {dp dt : EReal} (h : ¬(up ∧ dt ≠ 0)) : pairTerm up dp dt = 0 := if_neg h

theorem pairOne_pos {up : Prop} {dt : EReal} (h : up ∧ dt ≠ 0) : pairOne up dt = 1 := if_pos h

theorem pairOne_neg {up : Prop} {dt : EReal} (h : ¬(up ∧ dt ≠ 0)) : pairOne up dt = 0 := if_neg h

end Cert.PairSpec

end
-- ==== Proof.TileLoss.lean ====
/-
  The loss accumulator after one tile, read at an index, at the extended reals.

  The kernel's tile step forms the 512 × 512 array of pair terms from the tile's column and row pieces of the
  scores and of the labels, keeps the entries the mask selects, sums the lanes of each row, sums the 512 row
  sums, and adds the total to the accumulator. Read at the accumulator's one index this is the accumulator plus the
  double sum over the tile of the masked softplus terms.
-/
import proofs.«156637_j40699110097504_2_alg».proof.Proof.Gen.KernelIdeal.Skeleton
import proofs.«156637_j40699110097504_2_alg».proof.Proof.PairSpec
import Idealize.ShloMosaic.Lib.ValueIdx
import Idealize.ShloMosaic.Lib.ValueLayout
import Idealize.ShloMosaic.Lib.Pipeline.Value
import Idealize.ShloMosaic.PureOps.Ideal.Laws

noncomputable section

namespace Cert.TileLoss

open Cert.KernelIdeal Cert.KernelIdeal.Gen Idealize.ShloMosaic Idealize.ShloMosaic.ValueIdx

/-! ## Layout pieces at the tile's literal shapes -/

section Layout
variable {α : Type}

/-- A `[512, 1]` column broadcast to `[512, 512]` reads, at `(a, b)`, the column at `(a, 0)`. -/
theorem broadcastTo_col_apply (v : S512x1.Idx → α) (h : S512x1.Broadcasts S512x512) (a b : Fin 512) :
    broadcastTo S512x512 v h (ix2 a b) = v (ix2 a (0 : Fin 1)) := by
  refine broadcastTo_apply v h (ix2 a b) (ix2 a (0 : Fin 1)) fun ax => ?_
  match ax with
  | ⟨0, _⟩ => rfl
  | ⟨1, _⟩ => rfl

/-- A `[1, 512]` row broadcast to `[512, 512]` reads, at `(a, b)`, the row at `(0, b)`. -/
theorem broadcastTo_row_apply (v : S1x512.Idx → α) (h : S1x512.Broadcasts S512x512) (a b : Fin 512) :
    broadcastTo S512x512 v h (ix2 a b) = v (ix2 (0 : Fin 1) b) :=
  broadcastTo_1b_ab_apply v h a b

/-- A `[512]` vector cast to a `[512, 1]` column reads, at `(a, 0)`, the vector at `a`. -/
theorem shapeCast_col_apply (v : S512.Idx → α) (h : S512.ShapeCasts S512x1) (a : Fin 512) (u : Fin 1) :
    shapeCast S512x1 v h (ix2 a u) = v (ix1 a) :=
  shapeCast_apply v h _ _ (by
    have hu : u.val = 0 := by omega
    rw [Shape.rowMajor_val_two, Shape.rowMajor_val_one]
    show a.val = a.val * 1 + u.val
    rw [hu, Nat.mul_one, Nat.add_zero])

/-- A `[1]` vector cast to `[1, 1]` reads the vector's one entry. -/
theorem shapeCast_one_apply (v : S1.Idx → α) (h : S1.ShapeCasts S1x1) (u w : Fin 1) :
    shapeCast S1x1 v h (ix2 u w) = v (ix1 w) :=
  shapeCast_a_1a_apply v h u w

end Layout

variable [Cert.KernelIdeal.Facts]

/-! ## The two difference arrays -/

/-- The score differences: entry `(a, b)` is the column piece at `a` minus the row piece at `b`. -/
theorem pay4_apply (x0 : Vec Ideal S512x1 .f32) (x1 : Vec Ideal S1x512 .f32) (a b : Fin 512) :
    k0_pay4 x0 x1 (ix2 a b) = x0 (ix2 a (0 : Fin 1)) - x1 (ix2 (0 : Fin 1) b) := by
  unfold k0_pay4
  show broadcastTo S512x512 (shapeCast S512x1 x0 shapeCasts_S512x1_S512x1) broadcasts_S512x1_S512x512 (ix2 a b)
      - broadcastTo S512x512 (shapeCast S1x512 x1 shapeCasts_S1x512_S1x512) broadcasts_S1x512_S512x512 (ix2 a b) = _
  rw [shapeCast_self, shapeCast_self, broadcastTo_col_apply, broadcastTo_row_apply]

/-- The label differences, likewise. -/
theorem pay5_apply (x2 : Vec Ideal S512x1 .f32) (x3 : Vec Ideal S1x512 .f32) (a b : Fin 512) :
    k0_pay5 x2 x3 (ix2 a b) = x2 (ix2 a (0 : Fin 1)) - x3 (ix2 (0 : Fin 1) b) := by
  unfold k0_pay5
  show broadcastTo S512x512 (shapeCast S512x1 x2 shapeCasts_S512x1_S512x1) broadcasts_S512x1_S512x512 (ix2 a b)
      - broadcastTo S512x512 (shapeCast S1x512 x3 shapeCasts_S1x512_S1x512) broadcasts_S1x512_S512x512 (ix2 a b) = _
  rw [shapeCast_self, shapeCast_self, broadcastTo_col_apply, broadcastTo_row_apply]

/-! ## The sign array and the constant `-1` -/

/-- The kernel's sign of the label difference — `1` carrying the difference's sign where its absolute value is
    positive, the difference itself (zero) elsewhere — is the sign function at every entry. -/
theorem pay7_apply (x2 : Vec Ideal S512x1 .f32) (x3 : Vec Ideal S1x512 .f32) (j : S512x512.Idx) :
    k0_pay7 x2 x3 j = Ideal.sign (k0_pay5 x2 x3 j) := by
  unfold k0_pay7
  exact Ideal.jnp_sign_eq_sign_f32 (k0_pay5 x2 x3 j)

/-- The pattern `0xBF800000` denotes `-1`. -/
theorem ofBits_negOne_f32 : Ideal.ofBits .f32 0xBF800000#32 = -1 :=
  IdealRules.sign_bit.ideal_negOnePat .f32

/-- The constant array of the multiplication is `-1` at every entry. -/
theorem pay8_apply (j : S512x512.Idx) : k0_pay8 (F := Ideal) j = -1 := by
  unfold k0_pay8
  exact ofBits_negOne_f32

/-! ## One entry of the masked array -/

/-- At one entry, with `z` the product the kernel forms: the guarded softplus chain is `softplus z` (its guard
    `z - 0 ≠ z - 0` never holds, `z - 0 = z`, `0 - w = -w`, and the absolute value is `max w (-w)`), and the select
    against the mask bit keeps it where the bit is set and gives zero elsewhere. -/
theorem entry_eq (m : BitVec 1) (z : EReal) :
    Scalar.select m
        (Scalar.select (Ideal.cmp .one (z - Ideal.ofBits .f32 0x00000000#32) (z - Ideal.ofBits .f32 0x00000000#32))
          (z + Ideal.ofBits .f32 0x00000000#32)
          (max z (Ideal.ofBits .f32 0x00000000#32)
            + Ideal.log1p (Ideal.exp (Ideal.ofBits .f32 0x00000000#32
                - max (z - Ideal.ofBits .f32 0x00000000#32) (-(z - Ideal.ofBits .f32 0x00000000#32))))))
        (Ideal.ofBits .f32 0x00000000#32)
      = if m = 1#1 then Cert.PairSpec.softplus z else 0 := by
  have hg : Ideal.cmp .one z z = 0#1 := by simp [Ideal.cmp]
  rw [Ideal.ofBits_zero_f32, sub_zero, zero_sub, hg, select_zero]
  rfl

/-! ## The two lane sums -/

/-- The sum over the lanes of row `a`. -/
theorem rowSum_apply (v : FVec Ideal S512x512 .f32) (h : S512x512.Reduces [1] S512) (hφ : FKind.Formats .f32)
    (hacc : (0x00000000#32 : BitVec 32) = FKind.add.neutral .f32 hφ) (a : Fin 512) :
    multiReduction .add [1] S512 v 0x00000000#32 h hφ hacc (ix1 a) = ∑ b : Fin 512, v (ix2 a b) := by
  refine (Ideal.multiReduction_add_single v _ h hφ hacc (ix1 a)).trans ?_
  exact Finset.sum_congr rfl fun b _ => congrArg v (funext fun d =>
    match d with
    | ⟨0, _⟩ => Fin.ext rfl
    | ⟨1, _⟩ => Fin.ext rfl)

/-- The sum of a `[512, 1]` column over its rows. -/
theorem colSum_apply (v : FVec Ideal S512x1 .f32) (h : S512x1.Reduces [0] S1) (hφ : FKind.Formats .f32)
    (hacc : (0x00000000#32 : BitVec 32) = FKind.add.neutral .f32 hφ) (w : Fin 1) :
    multiReduction .add [0] S1 v 0x00000000#32 h hφ hacc (ix1 w) = ∑ a : Fin 512, v (ix2 a w) := by
  refine (Ideal.multiReduction_add_single v _ h hφ hacc (ix1 w)).trans ?_
  exact Finset.sum_congr rfl fun a _ => congrArg v (funext fun d =>
    match d with
    | ⟨0, _⟩ => Fin.ext rfl
    | ⟨1, _⟩ => Fin.ext rfl)

/-! ## The accumulator after the tile -/

/-- The tile step over any difference, sign, constant and mask arrays: the accumulator plus the double sum of the
    masked softplus terms of the entrywise products `(v41 · v40) · v15`. -/
theorem pay9_sum (v15 : FVec Ideal S512x512 .f32) (v30 : IVec S512x512 1) (v40 v41 : FVec Ideal S512x512 .f32)
    (acc : Vec Ideal S1x1 .f32) (y : S1x1.Idx) :
    k0_pay9 v15 v30 v40 v41 acc y
      = acc y + ∑ a : Fin 512, ∑ b : Fin 512,
          (if v30 (ix2 a b) = 1#1 then
             Cert.PairSpec.softplus (v41 (ix2 a b) * v40 (ix2 a b) * v15 (ix2 a b))
           else 0) := by
  obtain ⟨u, w, rfl⟩ : ∃ u w : Fin 1, y = ix2 u w := ⟨y 0, y 1, eq_ix2 y⟩
  unfold k0_pay9
  dsimp only
  refine (congrFun (shapeCast_self _ _) (ix2 u w)).trans ?_
  refine congrArg (acc (ix2 u w) + ·) ?_
  refine (shapeCast_one_apply _ _ u w).trans ?_
  refine (colSum_apply _ _ _ _ w).trans ?_
  refine Finset.sum_congr rfl fun a _ => ?_
  refine (shapeCast_col_apply _ _ a w).trans ?_
  refine (rowSum_apply _ _ _ _ a).trans ?_
  exact Finset.sum_congr rfl fun b _ => entry_eq (v30 (ix2 a b)) (v41 (ix2 a b) * v40 (ix2 a b) * v15 (ix2 a b))

/-- The loss accumulator after one tile: the accumulator plus, over the tile's 512 × 512 pairs, the softplus of
    `-(sign (label difference)) · (score difference)` where the mask selects the pair, zero elsewhere. -/
theorem pay9_apply (x0 : Vec Ideal S512x1 .f32) (x1 : Vec Ideal S1x512 .f32) (x2 : Vec Ideal S512x1 .f32)
    (x3 : Vec Ideal S1x512 .f32) (v30 : IVec S512x512 1) (acc : Vec Ideal S1x1 .f32) (y : S1x1.Idx) :
    k0_pay9 (F := Ideal) (k0_pay4 x0 x1) v30 (k0_pay7 x2 x3) (k0_pay8 (F := Ideal)) acc y
      = acc y + ∑ a : Fin 512, ∑ b : Fin 512,
          (if v30 (ix2 a b) = 1#1 then
             Cert.PairSpec.softplus ((-1) * Ideal.sign (x2 (ix2 a 0) - x3 (ix2 0 b)) * (x0 (ix2 a 0) - x1 (ix2 0 b)))
           else 0) := by
  refine (pay9_sum _ _ _ _ acc y).trans ?_
  refine congrArg (acc y + ·) ?_
  refine Finset.sum_congr rfl fun a _ => Finset.sum_congr rfl fun b _ => ?_
  rw [pay8_apply, pay7_apply, pay5_apply, pay4_apply]

end Cert.TileLoss

end
-- ==== Proof.TileMask.lean ====
/-
  The kernel's mask of counting pairs, the count it accumulates, and the final guarded quotient, each read at an
  index on the extended reals.

  Inside tile (i₀, i₁) the entry (a, b) stands for the pair of global row 512·i₀ + a and global column 512·i₁ + b.
  Its mask bit is set exactly when the row lies strictly below the column and the two labels differ; the count
  accumulator grows by the number of set bits; and the value finally stored is the quotient of the two totals,
  guarded by the count being positive.
-/
import proofs.«156637_j40699110097504_2_alg».proof.Proof.Gen.KernelIdeal.Skeleton
import proofs.«156637_j40699110097504_2_alg».proof.Proof.PairSpec
import Idealize.ShloMosaic.Lib.ValueIdx
import Idealize.ShloMosaic.Lib.ValueLayout
import Idealize.ShloMosaic.Lib.Pipeline.Value
import Idealize.ShloMosaic.PureOps.Ideal.Laws

noncomputable section

namespace Cert.TileMask

open Cert.KernelIdeal Cert.KernelIdeal.Gen Idealize.ShloMosaic Idealize.ShloMosaic.ValueIdx
open scoped BigOperators

/-! ## Words and bits -/

/-- The bit of an ordered "greater than zero" comparison, when it holds. -/
theorem cmp_ogt_zero_pos {v : EReal} (h : 0 < v) : Ideal.cmp .ogt v 0 = 1#1 := by
  simp [Ideal.cmp, h]

/-- The bit of an ordered "greater than zero" comparison, when it fails. -/
theorem cmp_ogt_zero_neg {v : EReal} (h : ¬ 0 < v) : Ideal.cmp .ogt v 0 = 0#1 := by
  simp [Ideal.cmp, h]

/-- A mask bit widened to a word and read as a signed integer is one when set and zero when clear. -/
theorem bit_toReal (c : BitVec 1) : (((c.setWidth 32).toInt : ℝ) : EReal) = if c = 1#1 then (1 : EReal) else 0 := by
  rcases BitVec.eq_zero_or_eq_one c with h | h
  · subst h
    rw [if_neg (by decide)]
    have : ((0#1 : BitVec 1).setWidth 32).toInt = 0 := by decide
    rw [this]; simp
  · subst h
    rw [if_pos rfl]
    have : ((1#1 : BitVec 1).setWidth 32).toInt = 1 := by decide
    rw [this]; simp

/-- A tile's offset `512 · n` plus a coordinate inside the tile, computed on 32-bit words, is the word of the
    natural number `512 · n + a`. -/
theorem word_affine (n a : ℕ) :
    IntOp.addi (Scalar.muli (BitVec.ofNat 32 n) 512#32) (BitVec.ofNat 32 a) = BitVec.ofNat 32 (512 * n + a) := by
  show BitVec.ofNat 32 n * 512#32 + BitVec.ofNat 32 a = _
  apply BitVec.eq_of_toNat_eq
  simp only [BitVec.toNat_add, BitVec.toNat_mul, BitVec.toNat_ofNat]
  omega

/-- A natural number below `2³¹`, as a 32-bit word read signed, is itself. -/
theorem toInt_ofNat_small {k : ℕ} (hk : k < 2147483648) : (BitVec.ofNat 32 k).toInt = (k : ℤ) := by
  rw [BitVec.toInt_eq_toNat_cond, BitVec.toNat_ofNat]
  have e : k % 2 ^ 32 = k := Nat.mod_eq_of_lt (by omega)
  rw [e, if_pos (by omega)]

/-- Signed comparison of the words of two naturals below `2³¹` is the comparison of the naturals. -/
theorem slt_ofNat {m n : ℕ} (hm : m < 2147483648) (hn : n < 2147483648) :
    IntOp.cmpi .slt (BitVec.ofNat 32 m) (BitVec.ofNat 32 n) = BitVec.ofBool (decide (m < n)) := by
  show BitVec.ofBool ((BitVec.ofNat 32 m).slt (BitVec.ofNat 32 n)) = _
  refine congrArg BitVec.ofBool ?_
  rw [BitVec.slt, toInt_ofNat_small hm, toInt_ofNat_small hn]
  simp

/-- The conjunction of the two condition bits — "row below column" and "labels differ" — is the mask bit of a
    counting pair. -/
theorem and_bits (p : Prop) [Decidable p] (dt : EReal) :
    IntOp.andi (BitVec.ofBool (decide p)) (Ideal.cmp .one dt 0) = Cert.PairSpec.maskBit p dt := by
  show BitVec.ofBool (decide p) &&& BitVec.ofBool (decide (dt ≠ 0)) = _
  by_cases h1 : p
  · by_cases h2 : dt = 0
    · rw [Cert.PairSpec.maskBit_neg (fun h => h.2 h2)]
      simp [h1, h2]
    · rw [Cert.PairSpec.maskBit_pos ⟨h1, h2⟩]
      simp [h1, h2]
  · rw [Cert.PairSpec.maskBit_neg (fun h => h1 h.1)]
    simp [h1]

/-! ## Layout pieces: a column cast, the two lane sums -/

section Layout
variable {α : Type}

/-- A `[512]` vector cast to a `[512, 1]` column reads, at `(a, u)`, the vector at `a`. -/
theorem shapeCast_col_apply (v : S512.Idx → α) (h : S512.ShapeCasts S512x1) (a : Fin 512) (u : Fin 1) :
    shapeCast S512x1 v h (ix2 a u) = v (ix1 a) :=
  shapeCast_apply v h _ _ (by
    rw [Shape.rowMajor_val_one, Shape.rowMajor_val_two]
    show a.val = a.val * 1 + u.val
    omega)

end Layout

/-- The index a row sum inserts: row `a`, column `b`. -/
theorem lift_row (h : S512x512.Reduces [1] S512) (a b : Fin 512) : h.lift (ix1 a) b = ix2 a b := by
  funext c
  apply Fin.ext
  match c with
  | ⟨0, _⟩ => rfl
  | ⟨1, _⟩ => rfl

/-- The index a column sum inserts: row `a`, the one column. -/
theorem lift_col (h : S512x1.Reduces [0] S1) (j : S1.Idx) (a : Fin 512) : h.lift j a = ix2 a (0 : Fin 1) := by
  funext c
  apply Fin.ext
  match c with
  | ⟨0, _⟩ => rfl
  | ⟨1, _⟩ =>
    show (j 0).val = 0
    have : (j 0).val < 1 := (j 0).isLt
    omega

/-- A sum along the rows of a `512 × 512` tile, at row `a`, is the sum of that row's entries. -/
theorem rowSum_apply (v : FVec Ideal S512x512 .f32) (h : S512x512.Reduces [1] S512) (hφ : FKind.Formats .f32)
    (hacc : (0x00000000#32 : BitVec 32) = FKind.add.neutral .f32 hφ) (a : Fin 512) :
    multiReduction .add [1] S512 v 0x00000000#32 h hφ hacc (ix1 a) = ∑ b : Fin 512, v (ix2 a b) :=
  (Ideal.multiReduction_add_single v 0x00000000#32 h hφ hacc (ix1 a)).trans
    (Finset.sum_congr rfl fun b _ => congrArg v (lift_row h a b))

/-- A sum down a `512 × 1` column is the sum of its entries. -/
theorem colSum_apply (w : FVec Ideal S512x1 .f32) (h : S512x1.Reduces [0] S1) (hφ : FKind.Formats .f32)
    (hacc : (0x00000000#32 : BitVec 32) = FKind.add.neutral .f32 hφ) (j : S1.Idx) :
    multiReduction .add [0] S1 w 0x00000000#32 h hφ hacc j = ∑ a : Fin 512, w (ix2 a (0 : Fin 1)) :=
  (Ideal.multiReduction_add_single w 0x00000000#32 h hφ hacc j).trans
    (Finset.sum_congr rfl fun a _ => congrArg w (lift_col h j a))

/-! ## The kernel's values at an index -/

variable [Cert.KernelIdeal.Facts]

/-- The sum accumulator's initial value is zero. -/
theorem pay2_apply (y : S1x1.Idx) : k0_pay2 (F := Ideal) y = 0 := by
  unfold k0_pay2
  refine (congrFun (shapeCast_self _ _) y).trans ?_
  exact Ideal.ofBits_zero_f32

/-- The count accumulator's initial value is zero. -/
theorem pay3_apply (y : S1x1.Idx) : k0_pay3 (F := Ideal) y = 0 := by
  unfold k0_pay3
  refine (congrFun (shapeCast_self _ _) y).trans ?_
  exact Ideal.ofBits_zero_f32

/-- The stored result: the quotient of the two totals when the count is positive, else zero. -/
theorem pay1_apply (v85 v88 v89 : Vec Ideal S1x1 .f32) (y : S1x1.Idx) :
    k0_pay1 (F := Ideal) v85 v88 v89 y = if 0 < v85 y then Ideal.div (v88 y) (v89 y) else 0 := by
  unfold k0_pay1
  show Scalar.select (Ideal.cmp .ogt (v85 y) (Ideal.ofBits .f32 0x00000000#32)) (Ideal.div (v88 y) (v89 y))
      (Ideal.ofBits .f32 0x00000000#32) = _
  rw [Ideal.ofBits_zero_f32]
  by_cases h : 0 < v85 y
  · rw [if_pos h, cmp_ogt_zero_pos h, select_one]
  · rw [if_neg h, cmp_ogt_zero_neg h, select_zero]

/-- The count accumulator after the tile: what it held plus the number of set mask bits. The bits are widened to
    words, converted to reals (one or zero), summed along each row, and the row sums summed down the column. -/
theorem pay10_apply (v30 : IVec S512x512 1) (acc : Vec Ideal S1x1 .f32) (y : S1x1.Idx) :
    k0_pay10 (F := Ideal) v30 acc y
      = acc y + ∑ a : Fin 512, ∑ b : Fin 512, (if v30 (ix2 a b) = 1#1 then (1 : EReal) else 0) := by
  unfold k0_pay10
  refine (congrFun (shapeCast_self _ _) y).trans ?_
  refine congrArg (fun z : EReal => acc y + z) ?_
  refine (shapeCast_addUnit_apply ![1] _ _ y).trans ?_
  refine (colSum_apply _ _ _ _ _).trans ?_
  refine Finset.sum_congr rfl fun a _ => ?_
  refine (shapeCast_col_apply _ _ a 0).trans ?_
  refine (rowSum_apply _ _ _ _ a).trans ?_
  refine Finset.sum_congr rfl fun b _ => ?_
  exact bit_toReal (v30 (ix2 a b))

/-- The difference of a column piece and a row piece, each broadcast over the tile, at entry `(a, b)`. -/
theorem diff_apply (x2 : Vec Ideal S512x1 .f32) (x3 : Vec Ideal S1x512 .f32) (a b : Fin 512) :
    k0_pay5 (F := Ideal) x2 x3 (ix2 a b) = x2 (ix2 a 0) - x3 (ix2 0 b) := by
  unfold k0_pay5
  refine congrArg₂ (fun u v : EReal => u - v) ?_ ?_
  · refine (broadcastTo_apply _ _ (ix2 a b) (ix2 a (0 : Fin 1)) fun ax => ?_).trans
      (congrFun (shapeCast_self _ _) _)
    match ax with
    | ⟨0, _⟩ => rfl
    | ⟨1, _⟩ => rfl
  · refine (broadcastTo_apply _ _ (ix2 a b) (ix2 (0 : Fin 1) b) fun ax => ?_).trans
      (congrFun (shapeCast_self _ _) _)
    match ax with
    | ⟨0, _⟩ => rfl
    | ⟨1, _⟩ => rfl

/-- The mask at entry `(a, b)` of tile `i`: global row `512·i₀ + a` strictly below global column `512·i₁ + b`,
    and the two labels different. Both global indices stay below `8192`, so the 32-bit arithmetic and the signed
    comparison are those of the natural numbers. -/
theorem mask_apply (i : grid0.Coords) (x2 : Vec Ideal S512x1 .f32) (x3 : Vec Ideal S1x512 .f32) (a b : Fin 512) :
    k0_pay6 (F := Ideal) i x2 x3 (ix2 a b)
      = Cert.PairSpec.maskBit (512 * (i 0).val + a.val < 512 * (i 1).val + b.val) (x2 (ix2 a 0) - x3 (ix2 0 b)) := by
  have h0 : (i 0).val < 16 := (i 0).isLt
  have h1 : (i 1).val < 16 := (i 1).isLt
  have ha : a.val < 512 := a.isLt
  have hb : b.val < 512 := b.isLt
  unfold k0_pay6
  show IntOp.andi
      (IntOp.cmpi .slt
        (IntOp.addi (Scalar.muli (BitVec.ofNat 32 (i 0).val) 512#32) (iota .tc S512x512 32 [0] _ (ix2 a b)))
        (IntOp.addi (Scalar.muli (BitVec.ofNat 32 (i 1).val) 512#32) (iota .tc S512x512 32 [1] _ (ix2 a b))))
      (Ideal.cmp .one (k0_pay5 (F := Ideal) x2 x3 (ix2 a b)) (Ideal.ofBits .f32 0x00000000#32)) = _
  rw [iota_single_apply, iota_single_apply, diff_apply, Ideal.ofBits_zero_f32]
  show IntOp.andi
      (IntOp.cmpi .slt
        (IntOp.addi (Scalar.muli (BitVec.ofNat 32 (i 0).val) 512#32) (BitVec.ofNat 32 a.val))
        (IntOp.addi (Scalar.muli (BitVec.ofNat 32 (i 1).val) 512#32) (BitVec.ofNat 32 b.val)))
      (Ideal.cmp .one (x2 (ix2 a 0) - x3 (ix2 0 b)) 0) = _
  rw [word_affine, word_affine, slt_ofNat (by omega) (by omega)]
  exact and_bits _ _

end Cert.TileMask

end
-- ==== Proof.TileStep.lean ====
/-
  One tile's update of the two carried accumulators, in the specification's terms: the loss accumulator gains the
  tile's sum of pair contributions, the count accumulator gains the tile's number of counting pairs. The kernel's
  one-bit mask at an entry is set exactly when the pair counts, so its masked select is the specification's
  `pairTerm` and its 0/1 summand is `pairOne`.
-/
import proofs.«156637_j40699110097504_2_alg».proof.Proof.TileLoss
import proofs.«156637_j40699110097504_2_alg».proof.Proof.TileMask

noncomputable section

namespace Cert.TileStep

open Cert.KernelIdeal Cert.KernelIdeal.Gen Idealize.ShloMosaic Idealize.ShloMosaic.ValueIdx Cert.PairSpec

variable [Cert.KernelIdeal.Facts]

/-- The loss accumulator after tile `i`: what it held plus the tile's sum. -/
theorem sum_step (i : grid0.Coords) (x0 : Vec Ideal S512x1 .f32) (x1 : Vec Ideal S1x512 .f32) (x2 : Vec Ideal S512x1 .f32)
    (x3 : Vec Ideal S1x512 .f32) (acc : Vec Ideal S1x1 .f32) (y : S1x1.Idx) :
    k0_pay9 (F := Ideal) (k0_pay4 x0 x1) (k0_pay6 i x2 x3) (k0_pay7 x2 x3) (k0_pay8 (F := Ideal)) acc y
      = acc y + tileSum (i 0).val (i 1).val (fun a => x0 (ix2 a 0)) (fun b => x1 (ix2 0 b)) (fun a => x2 (ix2 a 0)) (fun b => x3 (ix2 0 b)) := by
  rw [Cert.TileLoss.pay9_apply]
  unfold tileSum
  congr 1
  refine Finset.sum_congr rfl fun a _ => Finset.sum_congr rfl fun b _ => ?_
  rw [Cert.TileMask.mask_apply]
  by_cases h : (512 * (i 0).val + a.val < 512 * (i 1).val + b.val) ∧ (x2 (ix2 a 0) - x3 (ix2 0 b) ≠ 0)
  · rw [if_pos (maskBit_pos h), pairTerm_pos h]
  · rw [if_neg (by rw [maskBit_neg h]; decide), pairTerm_neg h]

/-- The count accumulator after tile `i`: what it held plus the tile's number of counting pairs. -/
theorem cnt_step (i : grid0.Coords) (x2 : Vec Ideal S512x1 .f32) (x3 : Vec Ideal S1x512 .f32) (acc : Vec Ideal S1x1 .f32) (y : S1x1.Idx) :
    k0_pay10 (F := Ideal) (k0_pay6 i x2 x3) acc y
      = acc y + tileCount (i 0).val (i 1).val (fun a => x2 (ix2 a 0)) (fun b => x3 (ix2 0 b)) := by
  rw [Cert.TileMask.pay10_apply]
  unfold tileCount
  congr 1
  refine Finset.sum_congr rfl fun a _ => Finset.sum_congr rfl fun b _ => ?_
  rw [Cert.TileMask.mask_apply]
  by_cases h : (512 * (i 0).val + a.val < 512 * (i 1).val + b.val) ∧ (x2 (ix2 a 0) - x3 (ix2 0 b) ≠ 0)
  · rw [if_pos (maskBit_pos h), pairOne_pos h]
  · rw [if_neg (by rw [maskBit_neg h]; decide), pairOne_neg h]

end Cert.TileStep

end
-- ==== Proof.TileAt.lean ====
/-
  One grid point's update of the two accumulators, from the argument vectors.

  At point `t` the four input blocks are pieces of the scores and the labels (rows `512·(t / 16) + a`, columns
  `512·(t % 16) + b`), so the point adds tile `t`'s sum of contributions to the loss accumulator and tile `t`'s count to
  the count accumulator, both as functions of the argument vectors alone.
-/
import proofs.«156637_j40699110097504_2_alg».proof.Proof.Carried
import proofs.«156637_j40699110097504_2_alg».proof.Proof.Blocks
import proofs.«156637_j40699110097504_2_alg».proof.Proof.TileStep

set_option maxRecDepth 16384

noncomputable section

open Idealize.ShloMosaic Idealize.ShloMosaic.TcCoe Idealize.SL.Sem Idealize.ShloMosaic.ValueIdx

namespace Cert.KernelIdeal.TileAt

open Cert.KernelIdeal Cert.KernelIdeal.Gen Cert.KernelIdeal.Carried Cert.KernelIdeal.Blocks Cert.PairSpec

variable (m : (ℓ : Loc nD τ sig) → Buf (Elt Ideal) ℓ) (c : Dev nD)

/-- The two argument vectors as functions of the position. -/
def scores : Fin 8192 → EReal := fun r => m ((c : Thread nD τ).loc main_arg0) (ix1 r)

def labels : Fin 8192 → EReal := fun r => m ((c : Thread nD τ).loc main_arg1) (ix1 r)

/-- A vector read at a natural number: zero outside its length. -/
def atNat (p : Fin 8192 → EReal) (r : ℕ) : EReal := if h : r < 8192 then p ⟨r, h⟩ else 0

theorem atNat_of_lt (p : Fin 8192 → EReal) (r : ℕ) (h : r < 8192) : atNat p r = p ⟨r, h⟩ := dif_pos h

/-- Tile `k`'s sum of contributions and its count, from the argument vectors (tile row `k / 16`, tile column `k % 16`). -/
def tS (k : ℕ) : EReal :=
  tileSum (k / 16) (k % 16) (fun a => atNat (scores m c) (512 * (k / 16) + a.val)) (fun b => atNat (scores m c) (512 * (k % 16) + b.val))
    (fun a => atNat (labels m c) (512 * (k / 16) + a.val)) (fun b => atNat (labels m c) (512 * (k % 16) + b.val))

def tC (k : ℕ) : EReal :=
  tileCount (k / 16) (k % 16) (fun a => atNat (labels m c) (512 * (k / 16) + a.val)) (fun b => atNat (labels m c) (512 * (k % 16) + b.val))

/-- The four blocks at point `t`, as pieces of the argument vectors. -/
theorem blk0 (t : Fin cfg0.N) : (fun a : Fin 512 => (iblk m c 0 t : Vec Ideal S512x1 .f32) (ix2 a 0))
    = fun a => atNat (scores m c) (512 * (t.val / 16) + a.val) :=
  funext fun a => (iblk0_apply m c t a).trans (atNat_of_lt (scores m c) _ (row_lt t a)).symm

theorem blk1 (t : Fin cfg0.N) : (fun b : Fin 512 => (iblk m c 1 t : Vec Ideal S1x512 .f32) (ix2 0 b))
    = fun b => atNat (scores m c) (512 * (t.val % 16) + b.val) :=
  funext fun b => (iblk1_apply m c t b).trans (atNat_of_lt (scores m c) _ (col_lt t b)).symm

theorem blk2 (t : Fin cfg0.N) : (fun a : Fin 512 => (iblk m c 2 t : Vec Ideal S512x1 .f32) (ix2 a 0))
    = fun a => atNat (labels m c) (512 * (t.val / 16) + a.val) :=
  funext fun a => (iblk2_apply m c t a).trans (atNat_of_lt (labels m c) _ (row_lt t a)).symm

theorem blk3 (t : Fin cfg0.N) : (fun b : Fin 512 => (iblk m c 3 t : Vec Ideal S1x512 .f32) (ix2 0 b))
    = fun b => atNat (labels m c) (512 * (t.val % 16) + b.val) :=
  funext fun b => (iblk3_apply m c t b).trans (atNat_of_lt (labels m c) _ (col_lt t b)).symm

/-- One point's update of the loss accumulator: tile `t`'s sum is added. -/
theorem addSum_apply (t : Fin cfg0.N) (acc : Vec Ideal S1x1 .f32) (y : S1x1.Idx) :
    addSum m c t acc y = acc y + tS m c t.val := by
  unfold addSum tS
  refine (Cert.TileStep.sum_step (grid0.coords t) (iblk m c 0 t : Vec Ideal S512x1 .f32) (iblk m c 1 t : Vec Ideal S1x512 .f32)
    (iblk m c 2 t : Vec Ideal S512x1 .f32) (iblk m c 3 t : Vec Ideal S1x512 .f32) acc y).trans ?_
  rw [(coords_val t).1, (coords_val t).2, blk0 m c t, blk1 m c t, blk2 m c t, blk3 m c t]

/-- One point's update of the count accumulator: tile `t`'s count is added. -/
theorem addCnt_apply (t : Fin cfg0.N) (acc : Vec Ideal S1x1 .f32) (y : S1x1.Idx) :
    addCnt m c t acc y = acc y + tC m c t.val := by
  unfold addCnt tC
  refine (Cert.TileStep.cnt_step (grid0.coords t) (iblk m c 2 t : Vec Ideal S512x1 .f32) (iblk m c 3 t : Vec Ideal S1x512 .f32) acc y).trans ?_
  rw [(coords_val t).1, (coords_val t).2, blk2 m c t, blk3 m c t]

end Cert.KernelIdeal.TileAt

end
-- ==== Proof.LibTileSum.lean ====
/-
  Summing a two-argument function over a square cut into square tiles.

  For a function `f` of two natural-number indices with values in an additive commutative monoid, the sum
  over the `T * T` tiles (tile `n` sits in tile row `n / T` and tile column `n % T`) of the sums over the
  `B * B` entries `(B * (n / T) + a, B * (n % T) + b)` of a tile equals the sum of `f` over the whole
  `(T * B) × (T * B)` square. Only commutativity and associativity of addition are used.
-/
import Mathlib.Algebra.BigOperators.Fin
import Mathlib.Logic.Equiv.Fin.Basic

namespace Cert.LibTileSum

open Finset

/-- Writing `r < T * B` as `r = B * i + a` with `i < T` and `a < B`: a sum over `r` is the double sum over
    `(i, a)`. -/
theorem sum_block {M : Type*} [AddCommMonoid M] (T B : ℕ) (h : ℕ → M) :
    ∑ i : Fin T, ∑ a : Fin B, h (B * i.val + a.val) = ∑ r : Fin (T * B), h r.val := by
  rw [← Equiv.sum_comp (finProdFinEquiv (m := T) (n := B)) (fun r => h r.val), Fintype.sum_prod_type]
  refine Finset.sum_congr rfl fun i _ => Finset.sum_congr rfl fun a _ => ?_
  simp only [finProdFinEquiv_apply_val]
  rw [Nat.add_comm]

/-- Writing `n < T * T` as `n = T * i + j` with `i = n / T` and `j = n % T`: a sum over `n` of a function of
    `(n / T, n % T)` is the double sum over `(i, j)`. -/
theorem sum_range_divMod {M : Type*} [AddCommMonoid M] (T : ℕ) (g : ℕ → ℕ → M) :
    ∑ n ∈ Finset.range (T * T), g (n / T) (n % T) = ∑ i : Fin T, ∑ j : Fin T, g i.val j.val := by
  rw [Finset.sum_range (fun n => g (n / T) (n % T)), ← Fintype.sum_prod_type (f := fun x : Fin T × Fin T => g x.1.val x.2.val)]
  exact Equiv.sum_comp (finProdFinEquiv (m := T) (n := T)).symm (fun x : Fin T × Fin T => g x.1.val x.2.val)

/-- The sum over the `T * T` tiles of the sums over the `B * B` entries of each tile is the sum over the
    whole `(T * B) × (T * B)` square. -/
theorem sum_tiles {M : Type*} [AddCommMonoid M] (T B : ℕ) (hT : 0 < T) (f : ℕ → ℕ → M) :
    ∑ n ∈ Finset.range (T * T), ∑ a : Fin B, ∑ b : Fin B, f (B * (n / T) + a.val) (B * (n % T) + b.val)
      = ∑ r : Fin (T * B), ∑ c : Fin (T * B), f r.val c.val := by
  -- tiles as pairs (tile row, tile column)
  rw [sum_range_divMod T (fun i j => ∑ a : Fin B, ∑ b : Fin B, f (B * i + a.val) (B * j + b.val))]
  -- rows: the pair (tile row, row inside the tile) is the row of the square
  rw [← sum_block T B (fun r => ∑ c : Fin (T * B), f r c.val)]
  refine Finset.sum_congr rfl fun i _ => ?_
  -- bring the row inside the tile in front of the tile column
  rw [Finset.sum_comm]
  refine Finset.sum_congr rfl fun a _ => ?_
  -- columns: the pair (tile column, column inside the tile) is the column of the square
  exact sum_block T B (fun c => f (B * i.val + a.val) c)

/-- The instance with `16 × 16` tiles of `512 × 512` entries: the square has side `8192`. -/
theorem sum_tiles_16_512 {M : Type*} [AddCommMonoid M] (f : ℕ → ℕ → M) :
    ∑ n ∈ Finset.range 256, ∑ a : Fin 512, ∑ b : Fin 512, f (512 * (n / 16) + a.val) (512 * (n % 16) + b.val)
      = ∑ r : Fin 8192, ∑ c : Fin 8192, f r.val c.val :=
  sum_tiles 16 512 (by decide) f

end Cert.LibTileSum
-- ==== Proof.Accum.lean ====
/-
  The accumulation over the 256 grid points, at the extended reals.

  After point `n` the loss accumulator holds the sum of tiles `0 … n`'s partial sums and the count accumulator
  the sum of their counts — by induction on the point, each step adding one tile. The 256 tiles' sums together are
  the double sum over all 8192 × 8192 pairs (the tiles partition the pairs; addition on the extended reals is
  commutative and associative, so no finiteness is used), and after the last point the output block holds the
  quotient of the two totals: the specification's loss.
-/
import proofs.«156637_j40699110097504_2_alg».proof.Proof.TileAt
import proofs.«156637_j40699110097504_2_alg».proof.Proof.LibTileSum

set_option maxRecDepth 16384

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Carried Cert.KernelIdeal.Blocks Cert.KernelIdeal.TileAt Cert.PairSpec

variable (m : (ℓ : Loc nD τ sig) → Buf (Elt Ideal) ℓ) (c : Dev nD)

/-- After point `n` the accumulators hold the sums over tiles `0 … n`. -/
theorem carried_eq : ∀ (n : ℕ) (h : n < cfg0.N) (y : S1x1.Idx),
    (outsAt0 m c n h).2.1 y = ∑ k ∈ Finset.range (n + 1), tS m c k
      ∧ (outsAt0 m c n h).2.2 y = ∑ k ∈ Finset.range (n + 1), tC m c k
  | 0, h, y => by
    have hf := first m c ⟨0, h⟩ rfl (by show ¬(0 % 256 = 255); decide)
    constructor
    · rw [show (outsAt0 m c 0 h).2.1 = _ from hf.1, addSum_apply, Cert.TileMask.pay2_apply, zero_add, Finset.sum_range_one]
    · rw [show (outsAt0 m c 0 h).2.2 = _ from hf.2, addCnt_apply, Cert.TileMask.pay3_apply, zero_add, Finset.sum_range_one]
  | n + 1, h, y => by
    have hN : cfg0.N = 256 := N_0
    have h0 : ¬(⟨n + 1, h⟩ : Fin cfg0.N).val % 256 = 0 := by dsimp only; omega
    have hl := later m c ⟨n + 1, h⟩ h0
    have ih := carried_eq n (Nat.lt_of_succ_lt h) y
    constructor
    · rw [show (outsAt0 m c (n + 1) h).2.1 = _ from hl.1, addSum_apply, Finset.sum_range_succ]
      exact congrArg (· + tS m c (n + 1)) ih.1
    · rw [show (outsAt0 m c (n + 1) h).2.2 = _ from hl.2, addCnt_apply, Finset.sum_range_succ]
      exact congrArg (· + tC m c (n + 1)) ih.2

/-- The 256 tiles' sums together are the sum over all pairs. -/
theorem total_sum : ∑ k ∈ Finset.range 256, tS m c k = lossSum (scores m c) (labels m c) := by
  unfold tS tileSum lossSum
  refine (Cert.LibTileSum.sum_tiles_16_512 (fun r s => pairTerm (r < s) (atNat (scores m c) r - atNat (scores m c) s)
    (atNat (labels m c) r - atNat (labels m c) s))).trans ?_
  refine Finset.sum_congr rfl fun r _ => Finset.sum_congr rfl fun s _ => ?_
  rw [atNat_of_lt (scores m c) _ r.isLt, atNat_of_lt (scores m c) _ s.isLt, atNat_of_lt (labels m c) _ r.isLt, atNat_of_lt (labels m c) _ s.isLt]

theorem total_cnt : ∑ k ∈ Finset.range 256, tC m c k = pairCount (labels m c) := by
  unfold tC tileCount pairCount
  refine (Cert.LibTileSum.sum_tiles_16_512 (fun r s => pairOne (r < s) (atNat (labels m c) r - atNat (labels m c) s))).trans ?_
  refine Finset.sum_congr rfl fun r _ => Finset.sum_congr rfl fun s _ => ?_
  rw [atNat_of_lt (labels m c) _ r.isLt, atNat_of_lt (labels m c) _ s.isLt]

/-- After a last point `n + 1` the output block holds the quotient of the two accumulated totals. -/
theorem out_at (n : ℕ) (h : n + 1 < cfg0.N) (h1 : (n + 1) % 256 = 255) (y : S1x1.Idx) :
    (outsAt0 m c (n + 1) h).1 y
      = ratio (∑ k ∈ Finset.range (n + 1 + 1), tS m c k) (∑ k ∈ Finset.range (n + 1 + 1), tC m c k) := by
  have hN : cfg0.N = 256 := N_0
  have h0 : ¬(⟨n + 1, h⟩ : Fin cfg0.N).val % 256 = 0 := by dsimp only; omega
  have hl := last m c ⟨n + 1, h⟩ h0 h1
  have ih := carried_eq m c n (Nat.lt_of_succ_lt h) y
  rw [show (outsAt0 m c (n + 1) h).1 = _ from hl, Cert.TileMask.pay1_apply, addCnt_apply, addSum_apply,
    Finset.sum_range_succ (fun k => tS m c k) (n + 1), Finset.sum_range_succ (fun k => tC m c k) (n + 1), ← ih.1, ← ih.2]
  rfl

/-- After the last point, number 255, the output block holds the loss. -/
theorem out_last (h : 254 + 1 < cfg0.N) (y : S1x1.Idx) :
    (outsAt0 m c (254 + 1) h).1 y = loss (scores m c) (labels m c) := by
  rw [out_at m c 254 h rfl y]
  show ratio (∑ k ∈ Finset.range 256, tS m c k) (∑ k ∈ Finset.range 256, tC m c k) = _
  rw [total_sum, total_cnt]
  rfl

end Cert.KernelIdeal.Accum

end
-- ==== Proof.KernelValue.lean ====
/-
  The kernel's result at the extended reals: the specification's loss.

  The output window is written back once, after the last grid point, and its one block is the whole `[1, 1]` array;
  the host then casts that array to a scalar. So the program's result is the loss of the two argument vectors.
-/
import proofs.«156637_j40699110097504_2_alg».proof.Proof.Accum
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.TileAt Cert.KernelIdeal.Accum Cert.PairSpec

variable (m : (ℓ : Loc nD τ sig) → Buf (Elt Ideal) ℓ) (ρ : Dev nD → PrngReg)

/-- The last grid point. -/
abbrev tLast : Fin cfg0.N := ⟨255, by rw [show cfg0.N = 256 from N_0]; decide⟩

/-- The output array's contents after the run: the loss, at its one entry. -/
abbrev lossArr (c : Dev nD) : Buf (Elt Ideal) ((c : Thread nD τ).loc main_v4) := fun _ => loss (scores m c) (labels m c)

/-- At the one point whose number is 255 modulo 256 — the last — the output block holds the loss, at every entry. -/
theorem out_flush (c : Dev nD) (t : Fin cfg0.N) (h : t.val % 256 = 255) (y : S1x1.Idx) :
    (outsAt0 m c t.val t.isLt).1 y = loss (scores m c) (labels m c) := by
  have hN : cfg0.N = 256 := N_0
  obtain ⟨n, hn⟩ := t
  cases n with
  | zero => exact absurd h (by show ¬(0 % 256 = 255); decide)
  | succ n =>
    dsimp only at h ⊢
    have hn' : n + 1 + 1 = 256 := by omega
    rw [out_at m c n hn h y, hn', total_sum, total_cnt]
    rfl

/-- The one write-back, after the last point, writes the loss. -/
theorem flushed_eq (c : Dev nD) (t : Fin cfg0.N) (hf : (cfg0.win 4).flush t = true) :
    (dats m 0 c).flushed 4 t = ((cfg0.win 4).blk t).view.read (Elt Ideal) (lossArr m c) := by
  have h255 : t.val % 256 = 255 := (flush0_4 t).mp hf
  show (cfg0.win 4).cut (grid0.coords t) ((dats m 0 c).after 4 t) = _
  rw [after0_4]
  funext j
  rw [View.read_apply]
  exact out_flush m c t h255 _

/-- The output window's block index and extent, decided over the grid: block `(0, 0)`, one entry. -/
theorem idx4 : ∀ t : Fin cfg0.N, win0_4.index t 0 * win0_4.size 0 = 0 ∧ win0_4.index t 1 * win0_4.size 1 = 0
    ∧ win0_4.xsize (grid0.coords t) 0 = 1 ∧ win0_4.xsize (grid0.coords t) 1 = 1 :=
  (by decide +kernel : ∀ t : Fin grid0.N, win0_4.index t 0 * win0_4.size 0 = 0 ∧ win0_4.index t 1 * win0_4.size 1 = 0
    ∧ win0_4.xsize (grid0.coords t) 0 = 1 ∧ win0_4.xsize (grid0.coords t) 1 = 1)

/-- So the output array ends holding the loss: the last point's block covers it. -/
theorem final (c : Dev nD) : (dats m 0 c).arrAt 4 cfg0.N = lossArr m c :=
  (dats m 0 c).arrAt_eq_of_cover 4 (lossArr m c) (flushed_eq m c) fun i =>
    ⟨tLast, (flush0_4 tLast).mpr rfl, by
      show i ∈ ((View.whole main_v4).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [(idx4 tLast).1, (idx4 tLast).2.2.1]; omega
      | ⟨1, _⟩ => show win0_4.index tLast 1 * win0_4.size 1 ≤ (i 1 : Nat) ∧ (i 1 : Nat) < win0_4.index tLast 1 * win0_4.size 1 + win0_4.xsize (grid0.coords tLast) 1
                  rw [(idx4 tLast).2.1, (idx4 tLast).2.2.2]; omega⟩

/-- The scalar result: the host's cast of the `[1, 1]` array. -/
theorem tail_v5 (c : Dev nD) :
    Pipeline.afterTail₀ cfgs (dats m) 0 (V0 m) [hostOps1] c main_v5 = fun _ => loss (scores m c) (labels m c) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = lossArr m c := (Pipeline.withArrays_arr spec0 launch0.win.arr_inj c _ _ 4).trans (final m c)
  rw [e]
  rfl

/-- The run, read: the scalar result at the loss, the arguments unchanged. -/
theorem run : θ_run defs (onTc (τ := τ) (main (F := Ideal))) ⟨m, fun _ => 0, ρ⟩ fun r => ∀ c : Dev nD,
      r.2.mem ((c.tc : Thread nD τ).loc main_v5) = (fun _ => loss (scores m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (tail_v5 m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Final

end
-- ==== Proof.RefTerm.lean ====
/-
  The reference's result as one term of its two argument vectors, stage by stage: the outer differences
  `x[:, None] - x[None, :]`, the strict upper triangle from two broadcast iotas, the mask of counting pairs, the
  softplus of the signed score difference, the masked total, the integer count converted to a float, and the
  guarded quotient. Stated for any float instance; read at the extended reals elsewhere.
-/
import proofs.«156637_j40699110097504_2_alg».proof.ReferenceIdeal

noncomputable section

namespace Cert.RefTerm

open Cert.ReferenceIdeal Idealize.ShloMosaic
open Cert.ReferenceIdeal.Facts₀

variable {F : FTy → Type} [FloatOps F] [Cert.ReferenceIdeal.Facts]

/-- A vector as a column `[8192, 1]` and as a row `[1, 8192]`, each repeated to `[8192, 8192]`. -/
def colOf {α : Type} (x : S8192.Idx → α) : S8192x8192.Idx → α :=
  broadcastInDim S8192x8192 ![0, 1] bcast_S8192x1_S8192x8192_0_1 (broadcastInDim S8192x1 ![0] bcast_S8192_S8192x1_0 x)

def rowOf {α : Type} (x : S8192.Idx → α) : S8192x8192.Idx → α :=
  broadcastInDim S8192x8192 ![0, 1] bcast_S1x8192_S8192x8192_0_1 (broadcastInDim S1x8192 ![1] bcast_S8192_S1x8192_1 x)

/-- `x[:, None] - x[None, :]`. -/
def outer (x : (⟨S8192, .f32⟩ : BufTy).Contents (Elt F)) : (⟨S8192x8192, .f32⟩ : BufTy).Contents (Elt F) :=
  subf (colOf x) (rowOf x)

/-- The zero matrix: the scalar zero repeated. -/
def zeros : (⟨S8192x8192, .f32⟩ : BufTy).Contents (Elt F) :=
  broadcastInDim S8192x8192 ![] bcast_S_S8192x8192 (constant (F := F) S_ .f32 0x00000000#32)

/-- Row index strictly below column index, as integers. -/
def upper : IVec S8192x8192 1 :=
  cmpi .slt (colOf (iotaInDim S8192 32 0)) (rowOf (iotaInDim S8192 32 0))

/-- The counting pairs: above the diagonal, labels different. -/
def valid (x1 : (⟨S8192, .f32⟩ : BufTy).Contents (Elt F)) : IVec S8192x8192 1 :=
  andi upper (cmpf .une (outer x1) (zeros (F := F)))

/-- `-1 · sign (label difference) · score difference`. -/
def signed (x0 x1 : (⟨S8192, .f32⟩ : BufTy).Contents (Elt F)) : (⟨S8192x8192, .f32⟩ : BufTy).Contents (Elt F) :=
  mulf (mulf (broadcastInDim S8192x8192 ![] bcast_S_S8192x8192 (constant (F := F) S_ .f32 0xBF800000#32)) (Host.sign (outer x1))) (outer x0)

/-- The host's softplus: `max z 0 + log1p (exp (-|z - 0|))`, with the guard `z - 0 ≠ z - 0` selecting `z + 0`. -/
def softplusH (z : (⟨S8192x8192, .f32⟩ : BufTy).Contents (Elt F)) : (⟨S8192x8192, .f32⟩ : BufTy).Contents (Elt F) :=
  select (cmpf .une (subf z (zeros (F := F))) (subf z (zeros (F := F)))) (addf z (zeros (F := F)))
    (addf (maximumf z (zeros (F := F))) (Host.log1p (Host.exp (Host.negf (Host.absf (subf z (zeros (F := F))))))))

/-- Each pair's contribution, zero where the pair does not count. -/
def masked (x0 x1 : (⟨S8192, .f32⟩ : BufTy).Contents (Elt F)) : (⟨S8192x8192, .f32⟩ : BufTy).Contents (Elt F) :=
  select (valid x1) (softplusH (signed x0 x1))
    (broadcastInDim S8192x8192 ![] bcast_S_S8192x8192 (id (constant (F := F) S_ .f32 0x00000000#32)))

/-- The sum of all contributions. -/
def total (x0 x1 : (⟨S8192, .f32⟩ : BufTy).Contents (Elt F)) : (⟨S_, .f32⟩ : BufTy).Contents (Elt F) :=
  Host.reduceAdd (masked x0 x1) (constant (F := F) S_ .f32 0x00000000#32) reducesTo_S8192x8192_S_d0_1 h_S_

/-- The number of counting pairs: summed as 32-bit integers, then converted. -/
def count (x1 : (⟨S8192, .f32⟩ : BufTy).Contents (Elt F)) : (⟨S_, .f32⟩ : BufTy).Contents (Elt F) :=
  sitofp (F := F) .f32 (Host.reduce IntOp.addi (extui 32 (valid x1) natLt_1_32) (constantI S_ 32 0#32) reducesTo_S8192x8192_S_d0_1 h_S_)

/-- The result: the total over the count where the count is positive, else zero. -/
def result (x0 x1 : (⟨S8192, .f32⟩ : BufTy).Contents (Elt F)) : (⟨S_, .f32⟩ : BufTy).Contents (Elt F) :=
  select (cmpf .ogt (count x1) (constant (F := F) S_ .f32 0x00000000#32)) (Host.divf (total x0 x1) (count x1))
    (id (constant (F := F) S_ .f32 0x00000000#32))

end Cert.RefTerm

end
-- ==== Proof.RefRun.lean ====
/-
  The reference program's run, read back. Its entry function is a straight line of 55 host operations (the three
  called functions' bodies standing in their calls' places), so every weakly fair execution terminates, and each
  buffer then holds the fold of the operations' results over the launch contents. Read at the result buffer that
  fold is one pure term of the two argument vectors: the guarded quotient of the masked softplus total by the pair
  count, stage by stage the term `Cert.RefTerm.result`. The two argument buffers are never written.
-/
import proofs.«156637_j40699110097504_2_alg».proof.Proof.Gen.ReferenceIdeal
import Idealize.ShloMosaic.Lib.StableHlo.Run
import proofs.«156637_j40699110097504_2_alg».proof.Proof.RefTerm

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations in program order: the outer differences of both vectors, the strict upper triangle
    from two broadcast iotas, the mask, the signed score difference, the softplus body, the masked select, the two
    reductions, the conversion of the count, and the guarded quotient. -/
abbrev ops : List (HloOp τ sig (Elt F)) :=
  [ unary main_arg0 main_v0 (broadcastInDim S8192x1 ![0] bcast_S8192_S8192x1_0 : (⟨S8192, .f32⟩ : BufTy).Contents (Elt F) → (⟨S8192x1, .f32⟩ : BufTy).Contents (Elt F)),
    unary main_arg0 main_v1 (broadcastInDim S1x8192 ![1] bcast_S8192_S1x8192_1 : (⟨S8192, .f32⟩ : BufTy).Contents (Elt F) → (⟨S1x8192, .f32⟩ : BufTy).Contents (Elt F)),
    unary main_v0 main_v2 (broadcastInDim S8192x8192 ![0, 1] bcast_S8192x1_S8192x8192_0_1 : (⟨S8192x1, .f32⟩ : BufTy).Contents (Elt F) → (⟨S8192x8192, .f32⟩ : BufTy).Contents (Elt F)),
    unary main_v1 main_v3 (broadcastInDim S8192x8192 ![0, 1] bcast_S1x8192_S8192x8192_0_1 : (⟨S1x8192, .f32⟩ : BufTy).Contents (Elt F) → (⟨S8192x8192, .f32⟩ : BufTy).Contents (Elt F)),
    binary main_v2 main_v3 main_v4 (subf : (⟨S8192x8192, .f32⟩ : BufTy).Contents (Elt F) → (⟨S8192x8192, .f32⟩ : BufTy).Contents (Elt F) → (⟨S8192x8192, .f32⟩ : BufTy).Contents (Elt F)),
    unary main_arg1 main_v5 (broadcastInDim S8192x1 ![0] bcast_S8192_S8192x1_0 : (⟨S8192, .f32⟩ : BufTy).Contents (Elt F) → (⟨S8192x1, .f32⟩ : BufTy).Contents (Elt F)),
    unary main_arg1 main_v6 (broadcastInDim S1x8192 ![1] bcast_S8192_S1x8192_1 : (⟨S8192, .f32⟩ : BufTy).Contents (Elt F) → (⟨S1x8192, .f32⟩ : BufTy).Contents (Elt F)),
    unary main_v5 main_v7 (broadcastInDim S8192x8192 ![0, 1] bcast_S8192x1_S8192x8192_0_1 : (⟨S8192x1, .f32⟩ : BufTy).Contents (Elt F) → (⟨S8192x8192, .f32⟩ : BufTy).Contents (Elt F)),
    unary main_v6 main_v8 (broadcastInDim S8192x8192 ![0, 1] bcast_S1x8192_S8192x8192_0_1 : (⟨S1x8192, .f32⟩ : BufTy).Contents (Elt F) → (⟨S8192x8192, .f32⟩ : BufTy).Contents (Elt F)),
    binary main_v7 main_v8 main_v9 (subf : (⟨S8192x8192, .f32⟩ : BufTy).Contents (Elt F) → (⟨S8192x8192, .f32⟩ : BufTy).Contents (Elt F) → (⟨S8192x8192, .f32⟩ : BufTy).Contents (Elt F)),
    nullary main_v10 (iotaInDim S8192 32 0),
    unary main_v10 main_v11 (broadcastInDim S8192x1 ![0] bcast_S8192_S8192x1_0 : (⟨S8192, .i32⟩ : BufTy).Contents (Elt F) → (⟨S8192x1, .i32⟩ : BufTy).Contents (Elt F)),
    unary main_v10 main_v12 (broadcastInDim S1x8192 ![1] bcast_S8192_S1x8192_1 : (⟨S8192, .i32⟩ : BufTy).Contents (Elt F) → (⟨S1x8192, .i32⟩ : BufTy).Contents (Elt F)),
    unary main_v11 main_v13 (broadcastInDim S8192x8192 ![0, 1] bcast_S8192x1_S8192x8192_0_1 : (⟨S8192x1, .i32⟩ : BufTy).Contents (Elt F) → (⟨S8192x8192, .i32⟩ : BufTy).Contents (Elt F)),
    unary main_v12 main_v14 (broadcastInDim S8192x8192 ![0, 1] bcast_S1x8192_S8192x8192_0_1 : (⟨S1x8192, .i32⟩ : BufTy).Contents (Elt F) → (⟨S8192x8192, .i32⟩ : BufTy).Contents (Elt F)),
    binary main_v13 main_v14 main_v15 (cmpi .slt : (⟨S8192x8192, .i32⟩ : BufTy).Contents (Elt F) → (⟨S8192x8192, .i32⟩ : BufTy).Contents (Elt F) → (⟨S8192x8192, .i1⟩ : BufTy).Contents (Elt F)),
    nullary main_cst (constant S_ .f32 0x00000000#32),
    unary main_cst main_v16 (broadcastInDim S8192x8192 ![] bcast_S_S8192x8192 : (⟨S_, .f32⟩ : BufTy).Contents (Elt F) → (⟨S8192x8192, .f32⟩ : BufTy).Contents (Elt F)),
    binary main_v9 main_v16 main_v17 (cmpf .une : (⟨S8192x8192, .f32⟩ : BufTy).Contents (Elt F) → (⟨S8192x8192, .f32⟩ : BufTy).Contents (Elt F) → (⟨S8192x8192, .i1⟩ : BufTy).Contents (Elt F)),
    binary main_v15 main_v17 main_v18 (andi : (⟨S8192x8192, .i1⟩ : BufTy).Contents (Elt F) → (⟨S8192x8192, .i1⟩ : BufTy).Contents (Elt F) → (⟨S8192x8192, .i1⟩ : BufTy).Contents (Elt F)),
    unary main_v9 main_v19 (Host.sign : (⟨S8192x8192, .f32⟩ : BufTy).Contents (Elt F) → (⟨S8192x8192, .f32⟩ : BufTy).Contents (Elt F)),
    nullary main_cst_0 (constant S_ .f32 0xBF800000#32),
    unary main_cst_0 main_v20 (broadcastInDim S8192x8192 ![] bcast_S_S8192x8192 : (⟨S_, .f32⟩ : BufTy).Contents (Elt F) → (⟨S8192x8192, .f32⟩ : BufTy).Contents (Elt F)),
    binary main_v20 main_v19 main_v21 (mulf : (⟨S8192x8192, .f32⟩ : BufTy).Contents (Elt F) → (⟨S8192x8192, .f32⟩ : BufTy).Contents (Elt F) → (⟨S8192x8192, .f32⟩ : BufTy).Contents (Elt F)),
    binary main_v21 main_v4 main_v22 (mulf : (⟨S8192x8192, .f32⟩ : BufTy).Contents (Elt F) → (⟨S8192x8192, .f32⟩ : BufTy).Contents (Elt F) → (⟨S8192x8192, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x8192, .f32⟩) main_call0_v0) (broadcastInDim S8192x8192 ![] bcast_S_S8192x8192),
    TRef.binary (TRef.of (T := ⟨S8192x8192, .f32⟩) main_v22) (TRef.of (T := ⟨S8192x8192, .f32⟩) main_call0_v0) (TRef.of (T := ⟨S8192x8192, .f32⟩) main_call0_v1) maximumf,
    TRef.unary (TRef.of (T := ⟨S_, .f32⟩) main_call0_cst) (TRef.of (T := ⟨S8192x8192, .f32⟩) main_call0_v2) (broadcastInDim S8192x8192 ![] bcast_S_S8192x8192),
    TRef.binary (TRef.of (T := ⟨S8192x8192, .f32⟩) main_v22) (TRef.of (T := ⟨S8192x8192, .f32⟩) main_call0_v2) (TRef.of (T := ⟨S8192x8192, .f32⟩) main_call0_v3) subf,
    TRef.binary (TRef.of (T := ⟨S8192x8192, .f32⟩) main_call0_v3) (TRef.of (T := ⟨S8192x8192, .f32⟩) main_call0_v3) (TRef.of (T := ⟨S8192x8192, .i1⟩) main_call0_v4) (cmpf .une),
    TRef.unary (TRef.of (T := ⟨S_, .f32⟩) main_call0_cst) (TRef.of (T := ⟨S8192x8192, .f32⟩) main_call0_v5) (broadcastInDim S8192x8192 ![] bcast_S_S8192x8192),
    TRef.binary (TRef.of (T := ⟨S8192x8192, .f32⟩) main_v22) (TRef.of (T := ⟨S8192x8192, .f32⟩) main_call0_v5) (TRef.of (T := ⟨S8192x8192, .f32⟩) main_call0_v6) addf,
    TRef.unary (TRef.of (T := ⟨S8192x8192, .f32⟩) main_call0_v3) (TRef.of (T := ⟨S8192x8192, .f32⟩) main_call0_v7) Host.absf,
    TRef.unary (TRef.of (T := ⟨S8192x8192, .f32⟩) main_call0_v7) (TRef.of (T := ⟨S8192x8192, .f32⟩) main_call0_v8) Host.negf,
    TRef.unary (TRef.of (T := ⟨S8192x8192, .f32⟩) main_call0_v8) (TRef.of (T := ⟨S8192x8192, .f32⟩) main_call0_v9) Host.exp,
    TRef.unary (TRef.of (T := ⟨S8192x8192, .f32⟩) main_call0_v9) (TRef.of (T := ⟨S8192x8192, .f32⟩) main_call0_v10) Host.log1p,
    TRef.binary (TRef.of (T := ⟨S8192x8192, .f32⟩) main_call0_v1) (TRef.of (T := ⟨S8192x8192, .f32⟩) main_call0_v10) (TRef.of (T := ⟨S8192x8192, .f32⟩) main_call0_v11) addf,
    TRef.ternary (TRef.of (T := ⟨S8192x8192, .i1⟩) main_call0_v4) (TRef.of (T := ⟨S8192x8192, .f32⟩) main_call0_v6) (TRef.of (T := ⟨S8192x8192, .f32⟩) main_call0_v11) (TRef.of (T := ⟨S8192x8192, .f32⟩) main_v23) select,
    nullary main_cst_1 (constant S_ .f32 0x00000000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v18) (TRef.of (T := ⟨S8192x8192, .f32⟩) main_v23) (TRef.of (T := ⟨S8192x8192, .f32⟩) main_call1_v1) (TRef.of (T := ⟨S8192x8192, .f32⟩) main_v24) select,
    nullary main_cst_2 (constant S_ .f32 0x00000000#32),
    binary main_v24 main_cst_2 main_v25 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    unary main_v18 main_v26 ((extui 32 · natLt_1_32) : (⟨S8192x8192, .i1⟩ : BufTy).Contents (Elt F) → (⟨S8192x8192, .i32⟩ : BufTy).Contents (Elt F)),
    nullary main_c (constantI S_ 32 0#32),
    binary main_v26 main_c main_v27 ((fun x v => Host.reduce IntOp.addi x v reducesTo_S8192x8192_S_d0_1 h_S_) : (⟨S8192x8192, .i32⟩ : BufTy).Contents (Elt F) → (⟨S_, .i32⟩ : BufTy).Contents (Elt F) → (⟨S_, .i32⟩ : BufTy).Contents (Elt F)),
    unary main_v27 main_v28 (sitofp .f32 : (⟨S_, .i32⟩ : BufTy).Contents (Elt F) → (⟨S_, .f32⟩ : BufTy).Contents (Elt F)),
    nullary main_cst_3 (constant S_ .f32 0x00000000#32),
    binary main_v28 main_cst_3 main_v29 (cmpf .ogt : (⟨S_, .f32⟩ : BufTy).Contents (Elt F) → (⟨S_, .f32⟩ : BufTy).Contents (Elt F) → (⟨S_, .i1⟩ : BufTy).Contents (Elt F)),
    binary main_v25 main_v28 main_v30 (Host.divf : (⟨S_, .f32⟩ : BufTy).Contents (Elt F) → (⟨S_, .f32⟩ : BufTy).Contents (Elt F) → (⟨S_, .f32⟩ : BufTy).Contents (Elt F)),
    nullary main_cst_4 (constant S_ .f32 0x00000000#32),
    TRef.unary (TRef.of (T := ⟨S_, .f32⟩) main_cst_4) (TRef.of (T := ⟨S_, .f32⟩) main_call2_v0) id,
    TRef.ternary (TRef.of (T := ⟨S_, .i1⟩) main_v29) (TRef.of (T := ⟨S_, .f32⟩) main_v30) (TRef.of (T := ⟨S_, .f32⟩) main_call2_v0) (TRef.of (T := ⟨S_, .f32⟩) main_v31) select ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., nullary_bufs_sub .., unary_bufs_sub .., unary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., unary_bufs_sub .., ternary_bufs_sub .., nullary_bufs_sub .., binary_bufs_sub .., unary_bufs_sub .., nullary_bufs_sub .., binary_bufs_sub .., unary_bufs_sub .., nullary_bufs_sub .., binary_bufs_sub .., binary_bufs_sub .., nullary_bufs_sub .., unary_bufs_sub .., ternary_bufs_sub ..⟩

set_option maxRecDepth 8192 in
set_option maxHeartbeats 2000000 in
/-- On every device, for any float values, from any memory with zero counters: every weakly fair execution of the
    reference terminates with its result buffer at the composed term of the two argument vectors' launch contents,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = Cert.RefTerm.result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v31).trans (by
        after_results_simp
        unfold Cert.RefTerm.result Cert.RefTerm.count Cert.RefTerm.total Cert.RefTerm.masked Cert.RefTerm.softplusH
          Cert.RefTerm.signed Cert.RefTerm.valid Cert.RefTerm.upper Cert.RefTerm.zeros Cert.RefTerm.outer
          Cert.RefTerm.colOf Cert.RefTerm.rowOf
        rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.RefRun

end
-- ==== Proof.RefValue.lean ====
/-
  The reference's result read at the extended reals: it is the pairwise ranking loss of the specification.

  Stage by stage over the reference's term. The two broadcasts of a vector read it at the row and at the column
  coordinate, so an outer difference at `(r, c)` is `x r - x c`; the signed comparison of the two broadcast iotas
  is `r < c`; the mask is the bit of "above the diagonal and the labels differ"; the host's softplus, whose guard
  `y ≠ y` never holds, is `max z 0 + log1p (exp (-|z|))`; the sum over both axes is the double sum of the
  masked contributions; the 32-bit integer sum of the widened mask bits is the number of counting pairs (at most
  `2 ^ 26`, so it reads back signed as itself); and the guarded quotient is the specification's ratio.
-/
import proofs.«156637_j40699110097504_2_alg».proof.Proof.Gen.ReferenceIdeal
import proofs.«156637_j40699110097504_2_alg».proof.Proof.RefTerm
import proofs.«156637_j40699110097504_2_alg».proof.Proof.PairSpec
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

namespace Cert.RefValue

open Cert.ReferenceIdeal Idealize.ShloMosaic Idealize.ShloMosaic.ValueIdx
open Cert.ReferenceIdeal.Facts₀
open Cert.RefTerm Cert.PairSpec
open scoped BigOperators

/-! ## The layout stages read at a pair of coordinates -/

section Layout
variable {α : Type}

/-- The column copy of a vector reads the vector at the row coordinate. -/
theorem colOf_apply (x : S8192.Idx → α) (r c : Fin 8192) : colOf x (ix2 r c) = x (ix1 r) := by
  unfold colOf
  refine (broadcastInDim_apply _ bcast_S8192x1_S8192x8192_0_1 _ (ix2 r c) (ix2 r (0 : Fin 1)) ?_).trans ?_
  · intro a
    match a with
    | ⟨0, _⟩ => show r.val = if (8192 : Nat) = 1 then 0 else r.val; rw [if_neg (by decide)]
    | ⟨1, _⟩ => show (0 : Nat) = if (1 : Nat) = 1 then 0 else c.val; rw [if_pos rfl]
  · refine broadcastInDim_apply _ bcast_S8192_S8192x1_0 x (ix2 r (0 : Fin 1)) (ix1 r) ?_
    intro a
    match a with
    | ⟨0, _⟩ => show r.val = if (8192 : Nat) = 1 then 0 else r.val; rw [if_neg (by decide)]

/-- The row copy of a vector reads the vector at the column coordinate. -/
theorem rowOf_apply (x : S8192.Idx → α) (r c : Fin 8192) : rowOf x (ix2 r c) = x (ix1 c) := by
  unfold rowOf
  refine (broadcastInDim_apply _ bcast_S1x8192_S8192x8192_0_1 _ (ix2 r c) (ix2 (0 : Fin 1) c) ?_).trans ?_
  · intro a
    match a with
    | ⟨0, _⟩ => show (0 : Nat) = if (1 : Nat) = 1 then 0 else r.val; rw [if_pos rfl]
    | ⟨1, _⟩ => show c.val = if (8192 : Nat) = 1 then 0 else c.val; rw [if_neg (by decide)]
  · refine broadcastInDim_apply _ bcast_S8192_S1x8192_1 x (ix2 (0 : Fin 1) c) (ix1 c) ?_
    intro a
    match a with
    | ⟨0, _⟩ => show c.val = if (8192 : Nat) = 1 then 0 else c.val; rw [if_neg (by decide)]

end Layout

/-! ## The strict upper triangle -/

/-- A word below `2 ^ 31` reads, signed, as itself. -/
theorem toInt_ofNat_small {n : Nat} (h : n < 2 ^ 31) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- The signed comparison of two coordinates is the comparison of the coordinates. -/
theorem upper_apply (r c : Fin 8192) : upper (ix2 r c) = BitVec.ofBool (decide (r.val < c.val)) := by
  show IntOp.cmpi .slt (colOf (iotaInDim S8192 32 0) (ix2 r c)) (rowOf (iotaInDim S8192 32 0) (ix2 r c)) = _
  rw [colOf_apply, rowOf_apply]
  show BitVec.ofBool ((BitVec.ofNat 32 r.val).slt (BitVec.ofNat 32 c.val)) = _
  have hr : r.val < 2 ^ 31 := lt_trans r.isLt (by norm_num)
  have hc : c.val < 2 ^ 31 := lt_trans c.isLt (by norm_num)
  rw [BitVec.slt, toInt_ofNat_small hr, toInt_ofNat_small hc]
  congr 1
  exact decide_eq_decide.2 Int.ofNat_lt

/-! ## Constants -/

/-- The zero matrix reads zero everywhere. -/
theorem zeros_apply (j : S8192x8192.Idx) : zeros (F := Ideal) j = 0 := by
  unfold zeros
  rw [broadcastInDim_scalar_apply]
  exact Ideal.ofBits_zero_f32

/-- The f32 pattern `0xBF800000` is minus one. -/
theorem ofBits_neg_one_f32 : Ideal.ofBits .f32 0xBF800000#32 = -1 := by
  have h : Ideal.ofBits .f32 0xBF800000#32 = ((-(1 : ℝ)) : EReal) := by
    simp [Ideal.ofBits, Ideal.ieee, -EReal.coe_mul, -EReal.coe_neg]; norm_num
  rw [h, EReal.coe_one]

/-! ## The mask of counting pairs -/

/-- "Not equal" as a bit: one when the operands differ … -/
theorem cmp_une_of_ne {a b : EReal} (h : a ≠ b) : Ideal.cmp .une a b = 1#1 := by
  simp [Ideal.cmp, h]

/-- … zero when they are equal. -/
theorem cmp_une_of_eq {a b : EReal} (h : a = b) : Ideal.cmp .une a b = 0#1 := by
  simp [Ideal.cmp, h]

/-- The outer difference at a pair is the difference of the two elements. -/
theorem outer_apply (x : (⟨S8192, .f32⟩ : BufTy).Contents (Elt Ideal)) (r c : Fin 8192) :
    outer (F := Ideal) x (ix2 r c) = x (ix1 r) - x (ix1 c) := by
  show colOf x (ix2 r c) - rowOf x (ix2 r c) = _
  rw [colOf_apply, rowOf_apply]

/-- The mask at a pair: above the diagonal and the labels different. -/
theorem valid_apply (x1 : (⟨S8192, .f32⟩ : BufTy).Contents (Elt Ideal)) (r c : Fin 8192) :
    valid (F := Ideal) x1 (ix2 r c) = maskBit (r.val < c.val) (x1 (ix1 r) - x1 (ix1 c)) := by
  show IntOp.andi (upper (ix2 r c))
    (Ideal.cmp .une (outer (F := Ideal) x1 (ix2 r c)) (zeros (F := Ideal) (ix2 r c))) = _
  rw [upper_apply, outer_apply, zeros_apply]
  by_cases h1 : r.val < c.val
  · by_cases h2 : x1 (ix1 r) - x1 (ix1 c) ≠ 0
    · rw [maskBit_pos ⟨h1, h2⟩, decide_eq_true h1, cmp_une_of_ne h2]; rfl
    · rw [maskBit_neg (fun h => h2 h.2), decide_eq_true h1, cmp_une_of_eq (not_not.1 h2)]; rfl
  · rw [maskBit_neg (fun h => h1 h.1), decide_eq_false h1]
    exact BitVec.zero_and

/-! ## One pair's contribution -/

/-- The host's softplus is the specification's: its guard `y ≠ y` is never taken. -/
theorem softplusH_apply (z : (⟨S8192x8192, .f32⟩ : BufTy).Contents (Elt Ideal)) (j : S8192x8192.Idx) :
    softplusH (F := Ideal) z j = softplus (z j) := by
  show Scalar.select (Ideal.cmp .une (z j - zeros (F := Ideal) j) (z j - zeros (F := Ideal) j))
      (z j + zeros (F := Ideal) j)
      (max (z j) (zeros (F := Ideal) j)
        + Ideal.log1p (Ideal.exp (-(max (z j - zeros (F := Ideal) j) (-(z j - zeros (F := Ideal) j)))))) = _
  rw [zeros_apply, cmp_une_of_eq rfl, select_zero, sub_zero]
  rfl

/-- The signed score difference at a pair. -/
theorem signed_apply (x0 x1 : (⟨S8192, .f32⟩ : BufTy).Contents (Elt Ideal)) (r c : Fin 8192) :
    signed (F := Ideal) x0 x1 (ix2 r c)
      = (-1) * Ideal.sign (x1 (ix1 r) - x1 (ix1 c)) * (x0 (ix1 r) - x0 (ix1 c)) := by
  show (broadcastInDim S8192x8192 ![] bcast_S_S8192x8192 (constant (F := Ideal) S_ .f32 0xBF800000#32)) (ix2 r c)
      * Ideal.sign (outer (F := Ideal) x1 (ix2 r c)) * outer (F := Ideal) x0 (ix2 r c) = _
  rw [broadcastInDim_scalar_apply, outer_apply, outer_apply]
  show Ideal.ofBits .f32 0xBF800000#32 * _ * _ = _
  rw [ofBits_neg_one_f32]

/-- The masked contribution at a pair is the specification's term. -/
theorem masked_apply (x0 x1 : (⟨S8192, .f32⟩ : BufTy).Contents (Elt Ideal)) (r c : Fin 8192) :
    masked (F := Ideal) x0 x1 (ix2 r c)
      = pairTerm (r.val < c.val) (x0 (ix1 r) - x0 (ix1 c)) (x1 (ix1 r) - x1 (ix1 c)) := by
  show Scalar.select (valid (F := Ideal) x1 (ix2 r c))
    (softplusH (F := Ideal) (signed (F := Ideal) x0 x1) (ix2 r c))
    ((broadcastInDim S8192x8192 ![] bcast_S_S8192x8192 (id (constant (F := Ideal) S_ .f32 0x00000000#32))) (ix2 r c)) = _
  rw [valid_apply, softplusH_apply, signed_apply, broadcastInDim_scalar_apply]
  show Scalar.select _ _ (Ideal.ofBits .f32 0x00000000#32) = _
  rw [Ideal.ofBits_zero_f32]
  by_cases h : r.val < c.val ∧ x1 (ix1 r) - x1 (ix1 c) ≠ 0
  · rw [maskBit_pos h, pairTerm_pos h, select_one]
  · rw [maskBit_neg h, pairTerm_neg h, select_zero]

/-! ## The total -/

/-- The host's sum over both axes is the specification's double sum. -/
theorem total_eq (x0 x1 : (⟨S8192, .f32⟩ : BufTy).Contents (Elt Ideal)) :
    total (F := Ideal) x0 x1 = fun _ => lossSum (fun r => x0 (ix1 r)) (fun r => x1 (ix1 r)) := by
  funext j
  show Ideal.hostReduceAdd reducesTo_S8192x8192_S_d0_1 (masked (F := Ideal) x0 x1)
      (constant (F := Ideal) S_ .f32 0x00000000#32 (Shape.Idx.first h_S_)) j = _
  rw [Ideal.hostReduceAdd_total reducesTo_S8192x8192_S_d0_1 (fun b => b.elim0), constant_apply,
    Ideal.ofBits_zero_f32, zero_add, sum_idx2]
  unfold lossSum
  exact Finset.sum_congr rfl fun r _ => Finset.sum_congr rfl fun c _ => masked_apply x0 x1 r c

/-! ## Counting by adding 0/1 words

A family of one-bit words, each widened to 32 bits, added up from zero over a finite set: the word of the
number of ones. While that number is below `2 ^ 31` the word reads, signed, as the number itself; and the
same number is the sum of the extended reals one and zero over the set. -/

section CountFold
variable {ι : Type} [DecidableEq ι]

/-- The sum of the widened bits over `S` is the word of how many of them are one. -/
theorem fold_addi_setWidth (b : ι → BitVec 1) (S : Finset ι) :
    S.fold IntOp.addi 0#32 (fun i => (b i).setWidth 32)
      = BitVec.ofNat 32 (S.filter fun i => b i = 1#1).card := by
  induction S using Finset.induction_on with
  | empty => rfl
  | insert a S ha ih =>
    rw [Finset.fold_insert ha, ih, Finset.filter_insert]
    by_cases h : b a = 1#1
    · rw [if_pos h, Finset.card_insert_of_notMem (fun hm => ha (Finset.mem_filter.1 hm).1), h,
        Nat.add_comm, BitVec.ofNat_add]
      rfl
    · rw [if_neg h, eq_zero_of_ne_one h]
      show (0#1 : BitVec 1).setWidth 32 + _ = _
      rw [show (0#1 : BitVec 1).setWidth 32 = 0#32 from rfl, BitVec.zero_add]

/-- Read signed, that word is the number of ones, as long as the set has fewer than `2 ^ 31` elements. -/
theorem toInt_fold_addi_setWidth (b : ι → BitVec 1) (S : Finset ι) (hS : S.card < 2 ^ 31) :
    (S.fold IntOp.addi 0#32 (fun i => (b i).setWidth 32)).toInt = ((S.filter fun i => b i = 1#1).card : Int) := by
  rw [fold_addi_setWidth]
  exact toInt_ofNat_small (lt_of_le_of_lt (Finset.card_filter_le _ _) hS)

/-- The sum of ones over the members that satisfy `p` is their number. -/
theorem sum_ite_one (p : ι → Prop) [DecidablePred p] (S : Finset ι) :
    ∑ i ∈ S, (if p i then (1 : EReal) else 0) = (((S.filter p).card : ℝ) : EReal) := by
  induction S using Finset.induction_on with
  | empty => simp
  | insert a S ha ih =>
    rw [Finset.sum_insert ha, ih, Finset.filter_insert]
    by_cases h : p a
    · rw [if_pos h, if_pos h, Finset.card_insert_of_notMem (fun hm => ha (Finset.mem_filter.1 hm).1)]
      push_cast
      rw [add_comm]
    · rw [if_neg h, if_neg h, zero_add]

end CountFold

/-! ## The count -/

/-- The matrix has `8192 · 8192` entries. -/
theorem card_idx : (Finset.univ : Finset S8192x8192.Idx).card = 8192 * 8192 := by
  rw [Finset.card_univ, Fintype.card_congr idxEquiv2, Fintype.card_prod, Fintype.card_fin]

/-- The integer sum of the widened mask, converted, is the specification's count. -/
theorem count_eq (x1 : (⟨S8192, .f32⟩ : BufTy).Contents (Elt Ideal)) :
    count (F := Ideal) x1 = fun _ => pairCount (fun r => x1 (ix1 r)) := by
  funext j
  show (((Host.reduce IntOp.addi (extui 32 (valid (F := Ideal) x1) natLt_1_32) (constantI S_ 32 0#32)
      reducesTo_S8192x8192_S_d0_1 h_S_ j).toInt : ℝ) : EReal) = _
  rw [Host.reduce_eq_fold, Finset.filter_true_of_mem (fun i _ => funext fun a => a.elim0)]
  show ((((Finset.univ : Finset S8192x8192.Idx).fold IntOp.addi 0#32
      (fun i => (valid (F := Ideal) x1 i).setWidth 32)).toInt : ℝ) : EReal) = _
  rw [toInt_fold_addi_setWidth _ _ (by rw [card_idx]; norm_num), Int.cast_natCast, ← sum_ite_one, sum_idx2]
  unfold pairCount
  refine Finset.sum_congr rfl fun r _ => Finset.sum_congr rfl fun c _ => ?_
  rw [valid_apply]
  by_cases h : r.val < c.val ∧ x1 (ix1 r) - x1 (ix1 c) ≠ 0
  · rw [if_pos (maskBit_pos h), pairOne_pos h]
  · rw [if_neg (by rw [maskBit_neg h]; decide), pairOne_neg h]

/-! ## The result -/

/-- "Greater than" as a bit: one when it holds … -/
theorem cmp_ogt_of_lt {a b : EReal} (h : b < a) : Ideal.cmp .ogt a b = 1#1 := by
  simp [Ideal.cmp, h]

/-- … zero when it does not. -/
theorem cmp_ogt_of_not_lt {a b : EReal} (h : ¬b < a) : Ideal.cmp .ogt a b = 0#1 := by
  simp [Ideal.cmp, h]

/-- The reference's result is the specification's loss of its two arguments. -/
theorem result_eq (x0 x1 : (⟨S8192, .f32⟩ : BufTy).Contents (Elt Ideal)) :
    Cert.RefTerm.result (F := Ideal) x0 x1
      = fun _ => Cert.PairSpec.loss (fun r => x0 (ValueIdx.ix1 r)) (fun r => x1 (ValueIdx.ix1 r)) := by
  funext j
  show Scalar.select
      (Ideal.cmp .ogt (count (F := Ideal) x1 j) (constant (F := Ideal) S_ .f32 0x00000000#32 j))
      (Ideal.div (total (F := Ideal) x0 x1 j) (count (F := Ideal) x1 j))
      (id (constant (F := Ideal) S_ .f32 0x00000000#32) j) = _
  rw [count_eq, total_eq]
  show Scalar.select (Ideal.cmp .ogt (pairCount _) (Ideal.ofBits .f32 0x00000000#32))
      (Ideal.div (lossSum _ _) (pairCount _)) (Ideal.ofBits .f32 0x00000000#32) = _
  rw [Ideal.ofBits_zero_f32]
  unfold loss ratio
  by_cases h : 0 < pairCount fun r => x1 (ix1 r)
  · rw [cmp_ogt_of_lt h, select_one, if_pos h]
  · rw [cmp_ogt_of_not_lt h, select_zero, if_neg h]

end Cert.RefValue

end
-- ==== Proof.lean ====
/-
  The pairwise ranking loss: a tiled accumulating kernel against the whole-matrix reference.

  Both programs take scores `p` and labels `t` of length 8192. A pair `(r, c)` counts when `r < c` and
  `t r ≠ t c`; it contributes `softplus (-(sign (t r - t c)) · (p r - p c))`; the result is the sum of the contributions
  over the number of counting pairs, or zero when no pair counts (`Cert.PairSpec.loss`).

  The kernel walks the 8192 × 8192 pairs in 16 × 16 tiles of 512 × 512: each grid point adds its tile's sum and its
  tile's count to two carried accumulators, zeroed at the first point, and the last point writes the guarded
  quotient. By induction on the point the accumulators hold the partial sums over the tiles so far; the tiles
  partition the pairs, and addition on the extended reals is commutative and associative, so the totals are the
  sums over all pairs — no finiteness of the inputs is used. The reference forms the whole matrices, sums the
  contributions in one reduction, and counts the pairs as 32-bit integers before converting: the count is at most
  2²⁶, so the integer sum does not wrap and its conversion is the same number the kernel obtains by adding ones.
  Entry by entry the two sides apply the same functions: the kernel's sign (±1 by the order, the value itself at
  zero) is the reference's sign, its `0 - |z|` the reference's negation, and the not-equal comparisons agree
  since the extended reals have no unordered pairs.

  The one rewrite of the idealization (the sign read off the sign bit) is the rule's own statement.
-/
import proofs.«156637_j40699110097504_2_alg».proof.Defs
import proofs.«156637_j40699110097504_2_alg».proof.Proof.Gen.Kernel
import proofs.«156637_j40699110097504_2_alg».proof.Proof.Gen.Kernel.Skeleton
import proofs.«156637_j40699110097504_2_alg».proof.Proof.Gen.Kernel.Launch
import proofs.«156637_j40699110097504_2_alg».proof.Proof.Gen.Kernel.Points
import proofs.«156637_j40699110097504_2_alg».proof.Proof.Gen.Kernel.Frame
import proofs.«156637_j40699110097504_2_alg».proof.Proof.Gen.KernelIdeal
import proofs.«156637_j40699110097504_2_alg».proof.Proof.Gen.KernelIdeal.Skeleton
import proofs.«156637_j40699110097504_2_alg».proof.Proof.Gen.KernelIdeal.Launch
import proofs.«156637_j40699110097504_2_alg».proof.Proof.Gen.KernelIdeal.Points
import proofs.«156637_j40699110097504_2_alg».proof.Proof.Gen.KernelIdeal.Frame
import proofs.«156637_j40699110097504_2_alg».proof.Proof.Gen.ReferenceIdeal
import proofs.«156637_j40699110097504_2_alg».proof.Proof.Gen.Pre_finite_inputs
import proofs.«156637_j40699110097504_2_alg».proof.Proof.KernelValue
import proofs.«156637_j40699110097504_2_alg».proof.Proof.RefRun
import proofs.«156637_j40699110097504_2_alg».proof.Proof.RefValue
import Idealize.ShloMosaic.Adequacy
import Idealize.ShloMosaic.Init

noncomputable section

namespace Cert.Proof

open Idealize.ShloMosaic Idealize.ShloMosaic.TcCoe Idealize.SL.Sem

/-- The three programs run and leave their arguments unchanged: the two kernels by their frame runs, the reference by
    its run with the result dropped. -/
theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RefRun.run (F := Ideal) m ρ)

/-- The idealization's one rewrite: one with the sign bit of a value is −1 or 1 by the value's order against zero. -/
theorem preserves : Cert.preserves_Kernel_KernelIdeal :=
  IdealRules.sign_bit.statement Cert.KernelIdeal.S512x512 .f32

/-- At the extended reals both programs end at the loss of the two argument vectors: the kernel by its accumulation
    over the tiles, the reference by its whole-matrix sums. -/
theorem algebraic : Cert.algebraic_KernelIdeal_ReferenceIdeal := by
  intro m ρ m' ρ' _ hagree
  refine ⟨fun c => (fun _ => Cert.PairSpec.loss (Cert.KernelIdeal.TileAt.scores m c) (Cert.KernelIdeal.TileAt.labels m c)),
    Cert.KernelIdeal.Final.run m ρ, ?_⟩
  refine (θ_run Cert.ReferenceIdeal.defs _ _).mono (fun _ h c => ⟨(h c).1.trans ?_, (h c).2⟩)
    (Cert.RefRun.run (F := Ideal) m' ρ')
  rw [Cert.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
